-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S256x128 .f32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S1x1 : Shape := ⟨2, ![1, 1]⟩
abbrev S6400x128 : Shape := ⟨2, ![6400, 128]⟩
abbrev S6400x1 : Shape := ⟨2, ![6400, 1]⟩
abbrev S6400 : Shape := ⟨1, ![6400]⟩

abbrev nBuf : Space → Nat
  | .hbm => 98
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x128, .f32⟩
  | .hbm, ⟨44, _⟩ => ⟨S_, .f32⟩
  | .hbm, ⟨45, _⟩ => ⟨S50000x128, .f32⟩
  | .hbm, ⟨46, _⟩ => ⟨S850000x1, .i32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S128x128, .f32⟩
  | .hbm, ⟨71, _⟩ => ⟨S128x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S800000x128, .f32⟩
  | .hbm, ⟨93, _⟩ => ⟨S1x128, .f32⟩
  | .hbm, ⟨94, _⟩ => ⟨S1x128, .f32⟩
  | .hbm, ⟨95, _⟩ => ⟨S1x1, .f32⟩
  | .hbm, ⟨96, _⟩ => ⟨S800000x1, .f32⟩
  | .hbm, ⟨97, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S6400x128, .f32⟩
  | .local _ .vmem, ⟨21, _⟩ => ⟨S6400x128, .f32⟩
  | .local _ .vmem, ⟨22, _⟩ => ⟨S1x128, .f32⟩
  | .local _ .vmem, ⟨23, _⟩ => ⟨S1x128, .f32⟩
  | .local _ .vmem, ⟨24, _⟩ => ⟨S1x1, .f32⟩
  | .local _ .vmem, ⟨25, _⟩ => ⟨S6400x1, .f32⟩
  | .local _ .vmem, ⟨26, _⟩ => ⟨S6400x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem4_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S6400x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  transposes_S128x1_S1x128_1_0 : S128x1.Transposes [1, 0] S1x128
  shapeCasts_S1_S1x1 : S1.ShapeCasts S1x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  broadcasts_S1x128_S6400x128 : S1x128.Broadcasts S6400x128
  reduces_S6400x128_S6400 : S6400x128.Reduces [1] S6400
  shapeCasts_S6400_S6400x1 : S6400.ShapeCasts S6400x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S800000x1_S800000 : S800000x1.ShapeCasts S800000
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x128.size a ≤ S800000x128.size a
  hwx3_0 : ∀ i : grid3.Coords, EltTy.bits .f32 = 32 ∨ (Rect.block (s := S800000x128) S6400x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6400x1.size a ≤ S800000x1.size a
  hwx3_4 : ∀ i : grid3.Coords, EltTy.bits .f32 = 32 ∨ (Rect.block (s := S800000x1) S6400x1.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v50_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S6400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S6400x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x1, .f32⟩
  | 9 => ⟨S1, .f32⟩
  | 10 => ⟨S50000x128, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S1x800000, .i32⟩
  | 75 => ⟨S800000, .i32⟩
  | 76 => ⟨S1x800000, .i32⟩
  | 77 => ⟨S800000, .i32⟩
  | 78 => ⟨S50000, .i32⟩
  | 79 => ⟨S850000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x1, .f32⟩
  | 124 => ⟨S850000x128, .f32⟩
  | 125 => ⟨S850000x128, .f32⟩
  | 126 => ⟨S_, .f32⟩
  | 127 => ⟨S50000x128, .f32⟩
  | _ => ⟨S50000x128, .f32⟩

abbrev hbmTy0_1 (i : Nat) : BufTy := match i % 128 with
  | 0 => ⟨S850000x1, .i32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S800000x256, .f32⟩
  | 31 => ⟨S800000x128, .f32⟩
  | 32 => ⟨S1x128, .f32⟩
  | 33 => ⟨S800000x128, .f32⟩
  | 34 => ⟨S800000x128, .f32⟩
  | 35 => ⟨S_, .f32⟩
  | 36 => ⟨S800000x128, .f32⟩
  | 37 => ⟨S800000x128, .f32⟩
  | 38 => ⟨S800000x1, .f32⟩
  | 39 => ⟨S1x1, .f32⟩
  | 40 => ⟨S800000x1, .f32⟩
  | 41 => ⟨S800000x1, .f32⟩
  | 42 => ⟨S800000x1, .f32⟩
  | 43 => ⟨S800000x1, .f32⟩
  | 44 => ⟨S_, .f32⟩
  | 45 => ⟨S800000x1, .f32⟩
  | 46 => ⟨S800000x1, .f32⟩
  | 47 => ⟨S_, .f32⟩
  | 48 => ⟨S800000x1, .f32⟩
  | 49 => ⟨S800000x1, .f32⟩
  | 50 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_20 : Ref sig .tc := ⟨.hbm, 140, rfl⟩
abbrev main_v100 : Ref sig .tc := ⟨.hbm, 141, rfl⟩
abbrev main_v101 : Ref sig .tc := ⟨.hbm, 142, rfl⟩
abbrev main_c_21 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_22 : Ref sig .tc := ⟨.hbm, 149, rfl⟩
abbrev main_v107 : Ref sig .tc := ⟨.hbm, 150, rfl⟩
abbrev main_v108 : Ref sig .tc := ⟨.hbm, 151, rfl⟩
abbrev main_c_23 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_call4_cst : Ref sig .tc := ⟨.hbm, 163, rfl⟩
abbrev main_call4_v0 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_24 : Ref sig .tc := ⟨.hbm, 172, rfl⟩
abbrev main_v126 : Ref sig .tc := ⟨.hbm, 173, rfl⟩
abbrev main_v127 : Ref sig .tc := ⟨.hbm, 174, rfl⟩
abbrev main_cst_25 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KernelRun.lean ====
/-
  THE KERNEL'S RUN WITH ITS RESULT NAMED: every weakly fair execution of the four-region program terminates, nothing
  faulting, with the result buffer at what the fold of the segments leaves in it (the contents after the last host
  stretch) and the argument arrays as launched. This is the launch over the program's eleven segments that proves the
  frame, read once more at the result buffer: the last thread state holds EVERY unscoped buffer at the final contents,
  so the result buffer's contents are among what the final state is read against.
-/
import proofs.«120741_j12326556139999_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v70 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunValue

end
-- ==== Proof.KernelHostOps.lean ====
/-
  THE HOST OPERATIONS BETWEEN THE TILES, STRETCH BY STRETCH.

  Each stretch of host operations is read here at the buffers later code needs, from ANY buffer contents `W` the
  stretch starts from, the buffers it reads named by typed variables: the index vectors (an edge's two end words
  `rowE`, `colE`; with one self-loop per node appended, `rowF`, `colF`), the degree and the normalizer
  `where(deg > 0, rsqrt(deg), 0)` as a vector and as a column, one graph-convolution layer around a dense product
  (`layerHost`: scale by the normalizer column, gather rows at the wrapped source words, scatter-add into zeros at the
  target words, scale again), and the edge stage's two gathers added.
-/
import proofs.«120741_j12326556139999_2_alg».proof.Proof.Gen.KernelIdeal.Frame
import Idealize.ShloMosaic.PureOps.Ideal
import Idealize.ShloMosaic.Lib.StableHlo.Run

noncomputable section

namespace Cert.KernelIdeal.HostChain

open Cert.KernelIdeal Cert.KernelIdeal.Gen Idealize.ShloMosaic Idealize.ShloMosaic.TcCoe Idealize.SL.Sem Idealize.ShloMosaic.StableHlo

/-! ## The values, as functions of the edge array and of what the tiles produce -/

/-- The source words of the edges: row 0 of the edge array. -/
def rowE (x1 : IVec S2x800000 32) : IVec S800000 32 :=
  shapeCast S800000 (extractStridedSlice S1x800000 ![0, 0] x1 slices_S2x800000_S1x800000_0_0) shapeCasts_S1x800000_S800000
/-- The target words of the edges: row 1 of the edge array. -/
def colE (x1 : IVec S2x800000 32) : IVec S800000 32 :=
  shapeCast S800000 (extractStridedSlice S1x800000 ![1, 0] x1 slices_S2x800000_S1x800000_1_0) shapeCasts_S1x800000_S800000
/-- The source words of the messages: the edges', then every node once. -/
def rowF (x1 : IVec S2x800000 32) : IVec S850000 32 :=
  concatenate S850000 0 [⟨S800000, rowE x1⟩, ⟨S50000, iotaInDim S50000 32 0⟩] concatenates_S800000_S50000_S850000_d0
/-- The target words of the messages. -/
def colF (x1 : IVec S2x800000 32) : IVec S850000 32 :=
  concatenate S850000 0 [⟨S800000, colE x1⟩, ⟨S50000, iotaInDim S50000 32 0⟩] concatenates_S800000_S50000_S850000_d0
/-- The degree: ones scattered into zeros at the target words. -/
def deg (x1 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (colF x1))
    (broadcastInDim S850000 ![] bcast_S_S850000 (constant (F := Ideal) S_ .f32 0x3F800000#32))
/-- The symmetric normalizer, a vector over the nodes. -/
def dinv (x1 : IVec S2x800000 32) : FVec Ideal S50000 .f32 :=
  select (cmpf (F := Ideal) .ogt (deg x1) (broadcastInDim S50000 ![] bcast_S_S50000 (constant (F := Ideal) S_ .f32 0x00000000#32)))
    (Host.rsqrt (F := Ideal) (deg x1))
    (broadcastInDim S50000 ![] bcast_S_S50000 (id (constant (F := Ideal) S_ .f32 0x00000000#32)))
/-- The normalizer as a column. -/
def dinvCol (x1 : IVec S2x800000 32) : FVec Ideal S50000x1 .f32 :=
  broadcastInDim S50000x1 ![0] bcast_S50000_S50000x1_0 (dinv x1)

/-- An index vector wrapped (a negative word counts from the end) and made a column. -/
def wrapCol850 (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)
/-- The same for the edges' words. -/
def wrapCol800 (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- One layer's aggregation around a dense product `h`: scale, gather at the sources, sum per target, scale. -/
def layerHost (h : FVec Ideal S50000x128 .f32) (dcol : FVec Ideal S50000x1 .f32) (vrow vcol : IVec S850000 32) :
    FVec Ideal S50000x128 .f32 :=
  mulf (F := Ideal)
    (Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 vcol)
      (Host.gather gather_S50000x128_S850000x1_S850000x128_1_0_n_n_0_1_1128
        (mulf (F := Ideal) h (broadcastInDim S50000x128 ![0, 1] bcast_S50000x1_S50000x128_0_1 dcol)) (wrapCol850 vrow)))
    (broadcastInDim S50000x128 ![0, 1] bcast_S50000x1_S50000x128_0_1 dcol)

/-- The edge stage's input: the two projections gathered at the edge's two ends, added. -/
def edgeSum (a1 a2 : FVec Ideal S50000x128 .f32) (vrow vcol : IVec S800000 32) : FVec Ideal S800000x128 .f32 :=
  addf (F := Ideal)
    (Host.gather gather_S50000x128_S800000x1_S800000x128_1_0_n_n_0_1_1128 a1 (wrapCol800 vrow))
    (Host.gather gather_S50000x128_S800000x1_S800000x128_1_0_n_n_0_1_1128 a2 (wrapCol800 vcol))

/-! ## The stretches -/

section
variable (W : Valuation τ sig (Elt Ideal))

theorem ops0_v1 (x1 : IVec S2x800000 32) (h1 : W (Proc.devRef .tc main_arg1) = x1) :
    StableHlo.after (hostOps0 (F := Ideal)) W (Proc.devRef .tc main_v1) = rowE x1 := by
  subst h1; after_results <;> rfl
theorem ops0_v3 (x1 : IVec S2x800000 32) (h1 : W (Proc.devRef .tc main_arg1) = x1) :
    StableHlo.after (hostOps0 (F := Ideal)) W (Proc.devRef .tc main_v3) = colE x1 := by
  subst h1; after_results <;> rfl
theorem ops0_v5 (x1 : IVec S2x800000 32) (h1 : W (Proc.devRef .tc main_arg1) = x1) :
    StableHlo.after (hostOps0 (F := Ideal)) W (Proc.devRef .tc main_v5) = rowF x1 := by
  subst h1; after_results <;> rfl
theorem ops0_v6 (x1 : IVec S2x800000 32) (h1 : W (Proc.devRef .tc main_arg1) = x1) :
    StableHlo.after (hostOps0 (F := Ideal)) W (Proc.devRef .tc main_v6) = colF x1 := by
  subst h1; after_results <;> rfl
theorem ops0_v12 (x1 : IVec S2x800000 32) (h1 : W (Proc.devRef .tc main_arg1) = x1) :
    StableHlo.after (hostOps0 (F := Ideal)) W (Proc.devRef .tc main_v12)
      = cmpf (F := Ideal) .ogt (deg x1) (broadcastInDim S50000 ![] bcast_S_S50000 (constant (F := Ideal) S_ .f32 0x00000000#32)) := by
  subst h1; after_results <;> rfl
theorem ops0_v13 (x1 : IVec S2x800000 32) (h1 : W (Proc.devRef .tc main_arg1) = x1) :
    StableHlo.after (hostOps0 (F := Ideal)) W (Proc.devRef .tc main_v13) = Host.rsqrt (F := Ideal) (deg x1) := by
  subst h1; after_results <;> rfl
theorem ops0_cst2 : StableHlo.after (hostOps0 (F := Ideal)) W (Proc.devRef .tc main_cst_2) = constant (F := Ideal) S_ .f32 0x00000000#32 := by
  after_results <;> rfl

theorem ops01_v14 (c12 : IVec S50000 1) (r13 : FVec Ideal S50000 .f32) (z : FVec Ideal S_ .f32)
    (h12 : W (Proc.devRef .tc main_v12) = c12) (h13 : W (Proc.devRef .tc main_v13) = r13) (hz : W (Proc.devRef .tc main_cst_2) = z) :
    StableHlo.after (hostOps0_1 (F := Ideal)) W (Proc.devRef .tc main_v14)
      = select c12 r13 (broadcastInDim S50000 ![] bcast_S_S50000 (id z)) := by
  subst h12 h13 hz; after_results <;> rfl

theorem ops02_v15 (d14 : FVec Ideal S50000 .f32) (h14 : W (Proc.devRef .tc main_v14) = d14) :
    StableHlo.after (hostOps0_2 (F := Ideal)) W (Proc.devRef .tc main_v15) = broadcastInDim S50000x1 ![0] bcast_S50000_S50000x1_0 d14 := by
  subst h14; after_results <;> rfl

set_option maxHeartbeats 4000000 in
theorem ops1_v30 (h16 : FVec Ideal S50000x128 .f32) (dcol : FVec Ideal S50000x1 .f32) (v5 v6 : IVec S850000 32)
    (e16 : W (Proc.devRef .tc main_v16) = h16) (e15 : W (Proc.devRef .tc main_v15) = dcol)
    (e5 : W (Proc.devRef .tc main_v5) = v5) (e6 : W (Proc.devRef .tc main_v6) = v6) :
    StableHlo.after (hostOps1 (F := Ideal)) W (Proc.devRef .tc main_v30) = layerHost h16 dcol v5 v6 := by
  subst e16 e15 e5 e6; after_results_simp <;> rfl
theorem ops1_v31 (x3 : FVec Ideal S128 .f32) (e3 : W (Proc.devRef .tc main_arg3) = x3) :
    StableHlo.after (hostOps1 (F := Ideal)) W (Proc.devRef .tc main_v31) = shapeCast S1x128 x3 shapeCasts_S128_S1x128 := by
  subst e3; after_results <;> rfl

set_option maxHeartbeats 4000000 in
theorem ops2_v46 (h32 : FVec Ideal S50000x128 .f32) (dcol : FVec Ideal S50000x1 .f32) (v5 v6 : IVec S850000 32)
    (e32 : W (Proc.devRef .tc main_v32) = h32) (e15 : W (Proc.devRef .tc main_v15) = dcol)
    (e5 : W (Proc.devRef .tc main_v5) = v5) (e6 : W (Proc.devRef .tc main_v6) = v6) :
    StableHlo.after (hostOps2 (F := Ideal)) W (Proc.devRef .tc main_v46) = layerHost h32 dcol v5 v6 := by
  subst e32 e15 e5 e6; after_results_simp <;> rfl
theorem ops2_v47 (x5 : FVec Ideal S128 .f32) (e5 : W (Proc.devRef .tc main_arg5) = x5) :
    StableHlo.after (hostOps2 (F := Ideal)) W (Proc.devRef .tc main_v47) = shapeCast S1x128 x5 shapeCasts_S128_S1x128 := by
  subst e5; after_results <;> rfl
theorem ops2_v48 (x6 : FVec Ideal S256x128 .f32) (e6 : W (Proc.devRef .tc main_arg6) = x6) :
    StableHlo.after (hostOps2 (F := Ideal)) W (Proc.devRef .tc main_v48) = extractStridedSlice S128x128 ![0, 0] x6 slices_S256x128_S128x128_0_0 := by
  subst e6; after_results <;> rfl
theorem ops2_v49 (x6 : FVec Ideal S256x128 .f32) (e6 : W (Proc.devRef .tc main_arg6) = x6) :
    StableHlo.after (hostOps2 (F := Ideal)) W (Proc.devRef .tc main_v49) = extractStridedSlice S128x128 ![128, 0] x6 slices_S256x128_S128x128_128_0 := by
  subst e6; after_results <;> rfl

set_option maxHeartbeats 4000000 in
theorem ops3_v65 (a1 a2 : FVec Ideal S50000x128 .f32) (v1 v3 : IVec S800000 32)
    (e0 : W (Proc.devRef .tc main_v50_0) = a1) (e1 : W (Proc.devRef .tc main_v50_1) = a2)
    (ev1 : W (Proc.devRef .tc main_v1) = v1) (ev3 : W (Proc.devRef .tc main_v3) = v3) :
    StableHlo.after (hostOps3 (F := Ideal)) W (Proc.devRef .tc main_v65) = edgeSum a1 a2 v1 v3 := by
  subst e0 e1 ev1 ev3; after_results_simp <;> rfl
theorem ops3_v66 (x7 : FVec Ideal S128 .f32) (e7 : W (Proc.devRef .tc main_arg7) = x7) :
    StableHlo.after (hostOps3 (F := Ideal)) W (Proc.devRef .tc main_v66) = shapeCast S1x128 x7 shapeCasts_S128_S1x128 := by
  subst e7; after_results <;> rfl
theorem ops3_v67 (x8 : FVec Ideal S128x1 .f32) (e8 : W (Proc.devRef .tc main_arg8) = x8) :
    StableHlo.after (hostOps3 (F := Ideal)) W (Proc.devRef .tc main_v67) = transpose S1x128 [1, 0] x8 transposes_S128x1_S1x128_1_0 := by
  subst e8; after_results <;> rfl
theorem ops3_v68 (x9 : FVec Ideal S1 .f32) (e9 : W (Proc.devRef .tc main_arg9) = x9) :
    StableHlo.after (hostOps3 (F := Ideal)) W (Proc.devRef .tc main_v68) = shapeCast S1x1 x9 shapeCasts_S1_S1x1 := by
  subst e9; after_results <;> rfl

theorem ops4_v70 (o69 : FVec Ideal S800000x1 .f32) (e69 : W (Proc.devRef .tc main_v69) = o69) :
    StableHlo.after (hostOps4 (F := Ideal)) W (Proc.devRef .tc main_v70) = shapeCast S800000 o69 shapeCasts_S800000x1_S800000 := by
  subst e69; after_results <;> rfl

end

end Cert.KernelIdeal.HostChain

end
-- ==== Proof.KernelKeep.lean ====
/-
  WHAT THE BUFFERS HOLD AT THE BOUNDARIES BETWEEN THE SEGMENTS.

  A buffer that no operation of a stretch writes, and that is not an array of a region, holds after the stretch or
  the region what it held before. So the argument arrays hold their launch contents at every boundary, and the index
  vectors and the normalizer column, written once by the first stretches, still hold those values where the later
  stretches read them.
-/
import proofs.«120741_j12326556139999_2_alg».proof.Proof.KernelHostOps

noncomputable section

namespace Cert.KernelIdeal.HostChain

open Cert.KernelIdeal Cert.KernelIdeal.Gen Idealize.ShloMosaic Idealize.ShloMosaic.TcCoe Idealize.SL.Sem Idealize.ShloMosaic.StableHlo

/-- Closes `after ops W b = W b` for a buffer `b` that no operation of the literal list `ops` writes. -/
local macro "nw" : tactic => `(tactic| (
  refine StableHlo.after_of_forall_not_mem _ _ (List.forall_iff_forall_mem.mp ?_)
  simp only [hostOps0, hostOps0_1, hostOps0_2, hostOps1, hostOps2, hostOps3, hostOps4, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The arguments at region 0's entry, and later -/
theorem at3_arg0 (x0 : FVec Ideal S50000x128 .f32) (e0 : m ((c : Thread nD τ).loc main_arg0) = x0) :
    W3 (F := Ideal) m ρ c (Proc.devRef .tc main_arg0) = x0 :=
  (((show W3 (F := Ideal) m ρ c (Proc.devRef .tc main_arg0) = W2 (F := Ideal) m ρ c (Proc.devRef .tc main_arg0) from (by nw)).trans ((show W2 (F := Ideal) m ρ c (Proc.devRef .tc main_arg0) = W1 (F := Ideal) m ρ c (Proc.devRef .tc main_arg0) from (by nw)).trans (show W1 (F := Ideal) m ρ c (Proc.devRef .tc main_arg0) = W0 (F := Ideal) m ρ c (Proc.devRef .tc main_arg0) from (by nw))))).trans e0
theorem at3_arg1 (x1 : IVec S2x800000 32) (e1 : m ((c : Thread nD τ).loc main_arg1) = x1) :
    W3 (F := Ideal) m ρ c (Proc.devRef .tc main_arg1) = x1 :=
  (((show W3 (F := Ideal) m ρ c (Proc.devRef .tc main_arg1) = W2 (F := Ideal) m ρ c (Proc.devRef .tc main_arg1) from (by nw)).trans ((show W2 (F := Ideal) m ρ c (Proc.devRef .tc main_arg1) = W1 (F := Ideal) m ρ c (Proc.devRef .tc main_arg1) from (by nw)).trans (show W1 (F := Ideal) m ρ c (Proc.devRef .tc main_arg1) = W0 (F := Ideal) m ρ c (Proc.devRef .tc main_arg1) from (by nw))))).trans e1
theorem at3_arg2 (x2 : FVec Ideal S128x128 .f32) (e2 : m ((c : Thread nD τ).loc main_arg2) = x2) :
    W3 (F := Ideal) m ρ c (Proc.devRef .tc main_arg2) = x2 :=
  (((show W3 (F := Ideal) m ρ c (Proc.devRef .tc main_arg2) = W2 (F := Ideal) m ρ c (Proc.devRef .tc main_arg2) from (by nw)).trans ((show W2 (F := Ideal) m ρ c (Proc.devRef .tc main_arg2) = W1 (F := Ideal) m ρ c (Proc.devRef .tc main_arg2) from (by nw)).trans (show W1 (F := Ideal) m ρ c (Proc.devRef .tc main_arg2) = W0 (F := Ideal) m ρ c (Proc.devRef .tc main_arg2) from (by nw))))).trans e2
theorem at3_arg3 (x3 : FVec Ideal S128 .f32) (e3 : m ((c : Thread nD τ).loc main_arg3) = x3) :
    W3 (F := Ideal) m ρ c (Proc.devRef .tc main_arg3) = x3 :=
  (((show W3 (F := Ideal) m ρ c (Proc.devRef .tc main_arg3) = W2 (F := Ideal) m ρ c (Proc.devRef .tc main_arg3) from (by nw)).trans ((show W2 (F := Ideal) m ρ c (Proc.devRef .tc main_arg3) = W1 (F := Ideal) m ρ c (Proc.devRef .tc main_arg3) from (by nw)).trans (show W1 (F := Ideal) m ρ c (Proc.devRef .tc main_arg3) = W0 (F := Ideal) m ρ c (Proc.devRef .tc main_arg3) from (by nw))))).trans e3
theorem at3_arg4 (x4 : FVec Ideal S128x128 .f32) (e4 : m ((c : Thread nD τ).loc main_arg4) = x4) :
    W3 (F := Ideal) m ρ c (Proc.devRef .tc main_arg4) = x4 :=
  (((show W3 (F := Ideal) m ρ c (Proc.devRef .tc main_arg4) = W2 (F := Ideal) m ρ c (Proc.devRef .tc main_arg4) from (by nw)).trans ((show W2 (F := Ideal) m ρ c (Proc.devRef .tc main_arg4) = W1 (F := Ideal) m ρ c (Proc.devRef .tc main_arg4) from (by nw)).trans (show W1 (F := Ideal) m ρ c (Proc.devRef .tc main_arg4) = W0 (F := Ideal) m ρ c (Proc.devRef .tc main_arg4) from (by nw))))).trans e4
theorem at3_arg5 (x5 : FVec Ideal S128 .f32) (e5 : m ((c : Thread nD τ).loc main_arg5) = x5) :
    W3 (F := Ideal) m ρ c (Proc.devRef .tc main_arg5) = x5 :=
  (((show W3 (F := Ideal) m ρ c (Proc.devRef .tc main_arg5) = W2 (F := Ideal) m ρ c (Proc.devRef .tc main_arg5) from (by nw)).trans ((show W2 (F := Ideal) m ρ c (Proc.devRef .tc main_arg5) = W1 (F := Ideal) m ρ c (Proc.devRef .tc main_arg5) from (by nw)).trans (show W1 (F := Ideal) m ρ c (Proc.devRef .tc main_arg5) = W0 (F := Ideal) m ρ c (Proc.devRef .tc main_arg5) from (by nw))))).trans e5
theorem at3_arg6 (x6 : FVec Ideal S256x128 .f32) (e6 : m ((c : Thread nD τ).loc main_arg6) = x6) :
    W3 (F := Ideal) m ρ c (Proc.devRef .tc main_arg6) = x6 :=
  (((show W3 (F := Ideal) m ρ c (Proc.devRef .tc main_arg6) = W2 (F := Ideal) m ρ c (Proc.devRef .tc main_arg6) from (by nw)).trans ((show W2 (F := Ideal) m ρ c (Proc.devRef .tc main_arg6) = W1 (F := Ideal) m ρ c (Proc.devRef .tc main_arg6) from (by nw)).trans (show W1 (F := Ideal) m ρ c (Proc.devRef .tc main_arg6) = W0 (F := Ideal) m ρ c (Proc.devRef .tc main_arg6) from (by nw))))).trans e6
theorem at3_arg7 (x7 : FVec Ideal S128 .f32) (e7 : m ((c : Thread nD τ).loc main_arg7) = x7) :
    W3 (F := Ideal) m ρ c (Proc.devRef .tc main_arg7) = x7 :=
  (((show W3 (F := Ideal) m ρ c (Proc.devRef .tc main_arg7) = W2 (F := Ideal) m ρ c (Proc.devRef .tc main_arg7) from (by nw)).trans ((show W2 (F := Ideal) m ρ c (Proc.devRef .tc main_arg7) = W1 (F := Ideal) m ρ c (Proc.devRef .tc main_arg7) from (by nw)).trans (show W1 (F := Ideal) m ρ c (Proc.devRef .tc main_arg7) = W0 (F := Ideal) m ρ c (Proc.devRef .tc main_arg7) from (by nw))))).trans e7
theorem at3_arg8 (x8 : FVec Ideal S128x1 .f32) (e8 : m ((c : Thread nD τ).loc main_arg8) = x8) :
    W3 (F := Ideal) m ρ c (Proc.devRef .tc main_arg8) = x8 :=
  (((show W3 (F := Ideal) m ρ c (Proc.devRef .tc main_arg8) = W2 (F := Ideal) m ρ c (Proc.devRef .tc main_arg8) from (by nw)).trans ((show W2 (F := Ideal) m ρ c (Proc.devRef .tc main_arg8) = W1 (F := Ideal) m ρ c (Proc.devRef .tc main_arg8) from (by nw)).trans (show W1 (F := Ideal) m ρ c (Proc.devRef .tc main_arg8) = W0 (F := Ideal) m ρ c (Proc.devRef .tc main_arg8) from (by nw))))).trans e8
theorem at3_arg9 (x9 : FVec Ideal S1 .f32) (e9 : m ((c : Thread nD τ).loc main_arg9) = x9) :
    W3 (F := Ideal) m ρ c (Proc.devRef .tc main_arg9) = x9 :=
  (((show W3 (F := Ideal) m ρ c (Proc.devRef .tc main_arg9) = W2 (F := Ideal) m ρ c (Proc.devRef .tc main_arg9) from (by nw)).trans ((show W2 (F := Ideal) m ρ c (Proc.devRef .tc main_arg9) = W1 (F := Ideal) m ρ c (Proc.devRef .tc main_arg9) from (by nw)).trans (show W1 (F := Ideal) m ρ c (Proc.devRef .tc main_arg9) = W0 (F := Ideal) m ρ c (Proc.devRef .tc main_arg9) from (by nw))))).trans e9
theorem at4_arg3 (x3 : FVec Ideal S128 .f32) (e3 : m ((c : Thread nD τ).loc main_arg3) = x3) :
    W4 (F := Ideal) m ρ c (Proc.devRef .tc main_arg3) = x3 :=
  ((show W4 (F := Ideal) m ρ c (Proc.devRef .tc main_arg3) = W3 (F := Ideal) m ρ c (Proc.devRef .tc main_arg3) from (W4_of_ne m ρ c main_arg3 (by decide)))).trans (at3_arg3 m ρ c x3 e3)
theorem at5_arg4 (x4 : FVec Ideal S128x128 .f32) (e4 : m ((c : Thread nD τ).loc main_arg4) = x4) :
    W5 (F := Ideal) m ρ c (Proc.devRef .tc main_arg4) = x4 :=
  ((show W5 (F := Ideal) m ρ c (Proc.devRef .tc main_arg4) = W4 (F := Ideal) m ρ c (Proc.devRef .tc main_arg4) from (by nw)).trans ((show W4 (F := Ideal) m ρ c (Proc.devRef .tc main_arg4) = W3 (F := Ideal) m ρ c (Proc.devRef .tc main_arg4) from (W4_of_ne m ρ c main_arg4 (by decide))))).trans (at3_arg4 m ρ c x4 e4)
theorem at6_arg5 (x5 : FVec Ideal S128 .f32) (e5 : m ((c : Thread nD τ).loc main_arg5) = x5) :
    W6 (F := Ideal) m ρ c (Proc.devRef .tc main_arg5) = x5 :=
  ((show W6 (F := Ideal) m ρ c (Proc.devRef .tc main_arg5) = W5 (F := Ideal) m ρ c (Proc.devRef .tc main_arg5) from (W6_of_ne m ρ c main_arg5 (by decide))).trans ((show W5 (F := Ideal) m ρ c (Proc.devRef .tc main_arg5) = W4 (F := Ideal) m ρ c (Proc.devRef .tc main_arg5) from (by nw)).trans ((show W4 (F := Ideal) m ρ c (Proc.devRef .tc main_arg5) = W3 (F := Ideal) m ρ c (Proc.devRef .tc main_arg5) from (W4_of_ne m ρ c main_arg5 (by decide)))))).trans (at3_arg5 m ρ c x5 e5)
theorem at6_arg6 (x6 : FVec Ideal S256x128 .f32) (e6 : m ((c : Thread nD τ).loc main_arg6) = x6) :
    W6 (F := Ideal) m ρ c (Proc.devRef .tc main_arg6) = x6 :=
  ((show W6 (F := Ideal) m ρ c (Proc.devRef .tc main_arg6) = W5 (F := Ideal) m ρ c (Proc.devRef .tc main_arg6) from (W6_of_ne m ρ c main_arg6 (by decide))).trans ((show W5 (F := Ideal) m ρ c (Proc.devRef .tc main_arg6) = W4 (F := Ideal) m ρ c (Proc.devRef .tc main_arg6) from (by nw)).trans ((show W4 (F := Ideal) m ρ c (Proc.devRef .tc main_arg6) = W3 (F := Ideal) m ρ c (Proc.devRef .tc main_arg6) from (W4_of_ne m ρ c main_arg6 (by decide)))))).trans (at3_arg6 m ρ c x6 e6)
theorem at8_arg7 (x7 : FVec Ideal S128 .f32) (e7 : m ((c : Thread nD τ).loc main_arg7) = x7) :
    W8 (F := Ideal) m ρ c (Proc.devRef .tc main_arg7) = x7 :=
  ((show W8 (F := Ideal) m ρ c (Proc.devRef .tc main_arg7) = W7 (F := Ideal) m ρ c (Proc.devRef .tc main_arg7) from (W8_of_ne m ρ c main_arg7 (by decide))).trans ((show W7 (F := Ideal) m ρ c (Proc.devRef .tc main_arg7) = W6 (F := Ideal) m ρ c (Proc.devRef .tc main_arg7) from (by nw)).trans ((show W6 (F := Ideal) m ρ c (Proc.devRef .tc main_arg7) = W5 (F := Ideal) m ρ c (Proc.devRef .tc main_arg7) from (W6_of_ne m ρ c main_arg7 (by decide))).trans ((show W5 (F := Ideal) m ρ c (Proc.devRef .tc main_arg7) = W4 (F := Ideal) m ρ c (Proc.devRef .tc main_arg7) from (by nw)).trans ((show W4 (F := Ideal) m ρ c (Proc.devRef .tc main_arg7) = W3 (F := Ideal) m ρ c (Proc.devRef .tc main_arg7) from (W4_of_ne m ρ c main_arg7 (by decide)))))))).trans (at3_arg7 m ρ c x7 e7)
theorem at8_arg8 (x8 : FVec Ideal S128x1 .f32) (e8 : m ((c : Thread nD τ).loc main_arg8) = x8) :
    W8 (F := Ideal) m ρ c (Proc.devRef .tc main_arg8) = x8 :=
  ((show W8 (F := Ideal) m ρ c (Proc.devRef .tc main_arg8) = W7 (F := Ideal) m ρ c (Proc.devRef .tc main_arg8) from (W8_of_ne m ρ c main_arg8 (by decide))).trans ((show W7 (F := Ideal) m ρ c (Proc.devRef .tc main_arg8) = W6 (F := Ideal) m ρ c (Proc.devRef .tc main_arg8) from (by nw)).trans ((show W6 (F := Ideal) m ρ c (Proc.devRef .tc main_arg8) = W5 (F := Ideal) m ρ c (Proc.devRef .tc main_arg8) from (W6_of_ne m ρ c main_arg8 (by decide))).trans ((show W5 (F := Ideal) m ρ c (Proc.devRef .tc main_arg8) = W4 (F := Ideal) m ρ c (Proc.devRef .tc main_arg8) from (by nw)).trans ((show W4 (F := Ideal) m ρ c (Proc.devRef .tc main_arg8) = W3 (F := Ideal) m ρ c (Proc.devRef .tc main_arg8) from (W4_of_ne m ρ c main_arg8 (by decide)))))))).trans (at3_arg8 m ρ c x8 e8)
theorem at8_arg9 (x9 : FVec Ideal S1 .f32) (e9 : m ((c : Thread nD τ).loc main_arg9) = x9) :
    W8 (F := Ideal) m ρ c (Proc.devRef .tc main_arg9) = x9 :=
  ((show W8 (F := Ideal) m ρ c (Proc.devRef .tc main_arg9) = W7 (F := Ideal) m ρ c (Proc.devRef .tc main_arg9) from (W8_of_ne m ρ c main_arg9 (by decide))).trans ((show W7 (F := Ideal) m ρ c (Proc.devRef .tc main_arg9) = W6 (F := Ideal) m ρ c (Proc.devRef .tc main_arg9) from (by nw)).trans ((show W6 (F := Ideal) m ρ c (Proc.devRef .tc main_arg9) = W5 (F := Ideal) m ρ c (Proc.devRef .tc main_arg9) from (W6_of_ne m ρ c main_arg9 (by decide))).trans ((show W5 (F := Ideal) m ρ c (Proc.devRef .tc main_arg9) = W4 (F := Ideal) m ρ c (Proc.devRef .tc main_arg9) from (by nw)).trans ((show W4 (F := Ideal) m ρ c (Proc.devRef .tc main_arg9) = W3 (F := Ideal) m ρ c (Proc.devRef .tc main_arg9) from (W4_of_ne m ρ c main_arg9 (by decide)))))))).trans (at3_arg9 m ρ c x9 e9)

/-! ## The index vectors and the normalizer column -/

variable (x1 : IVec S2x800000 32) (e1 : m ((c : Thread nD τ).loc main_arg1) = x1)
include e1

theorem at3_v1 : W3 (F := Ideal) m ρ c (Proc.devRef .tc main_v1) = rowE x1 :=
  ((show W3 (F := Ideal) m ρ c (Proc.devRef .tc main_v1) = W2 (F := Ideal) m ρ c (Proc.devRef .tc main_v1) from (by nw)).trans (show W2 (F := Ideal) m ρ c (Proc.devRef .tc main_v1) = W1 (F := Ideal) m ρ c (Proc.devRef .tc main_v1) from (by nw))).trans
    (ops0_v1 (W0 (F := Ideal) m ρ c) x1 e1)
theorem at3_v3 : W3 (F := Ideal) m ρ c (Proc.devRef .tc main_v3) = colE x1 :=
  ((show W3 (F := Ideal) m ρ c (Proc.devRef .tc main_v3) = W2 (F := Ideal) m ρ c (Proc.devRef .tc main_v3) from (by nw)).trans (show W2 (F := Ideal) m ρ c (Proc.devRef .tc main_v3) = W1 (F := Ideal) m ρ c (Proc.devRef .tc main_v3) from (by nw))).trans
    (ops0_v3 (W0 (F := Ideal) m ρ c) x1 e1)
theorem at3_v5 : W3 (F := Ideal) m ρ c (Proc.devRef .tc main_v5) = rowF x1 :=
  ((show W3 (F := Ideal) m ρ c (Proc.devRef .tc main_v5) = W2 (F := Ideal) m ρ c (Proc.devRef .tc main_v5) from (by nw)).trans (show W2 (F := Ideal) m ρ c (Proc.devRef .tc main_v5) = W1 (F := Ideal) m ρ c (Proc.devRef .tc main_v5) from (by nw))).trans
    (ops0_v5 (W0 (F := Ideal) m ρ c) x1 e1)
theorem at3_v6 : W3 (F := Ideal) m ρ c (Proc.devRef .tc main_v6) = colF x1 :=
  ((show W3 (F := Ideal) m ρ c (Proc.devRef .tc main_v6) = W2 (F := Ideal) m ρ c (Proc.devRef .tc main_v6) from (by nw)).trans (show W2 (F := Ideal) m ρ c (Proc.devRef .tc main_v6) = W1 (F := Ideal) m ρ c (Proc.devRef .tc main_v6) from (by nw))).trans
    (ops0_v6 (W0 (F := Ideal) m ρ c) x1 e1)
theorem at2_v14 : W2 (F := Ideal) m ρ c (Proc.devRef .tc main_v14) = dinv x1 :=
  ops01_v14 (W1 (F := Ideal) m ρ c) _ _ _ (ops0_v12 (W0 (F := Ideal) m ρ c) x1 e1) (ops0_v13 (W0 (F := Ideal) m ρ c) x1 e1)
    (ops0_cst2 (W0 (F := Ideal) m ρ c))
theorem at3_v15 : W3 (F := Ideal) m ρ c (Proc.devRef .tc main_v15) = dinvCol x1 :=
  ops02_v15 (W2 (F := Ideal) m ρ c) _ (at2_v14 m ρ c x1 e1)
theorem at4_v15 : W4 (F := Ideal) m ρ c (Proc.devRef .tc main_v15) = dinvCol x1 :=
  ((show W4 (F := Ideal) m ρ c (Proc.devRef .tc main_v15) = W3 (F := Ideal) m ρ c (Proc.devRef .tc main_v15) from (W4_of_ne m ρ c main_v15 (by decide)))).trans (at3_v15 m ρ c x1 e1)
theorem at4_v5 : W4 (F := Ideal) m ρ c (Proc.devRef .tc main_v5) = rowF x1 :=
  ((show W4 (F := Ideal) m ρ c (Proc.devRef .tc main_v5) = W3 (F := Ideal) m ρ c (Proc.devRef .tc main_v5) from (W4_of_ne m ρ c main_v5 (by decide)))).trans (at3_v5 m ρ c x1 e1)
theorem at4_v6 : W4 (F := Ideal) m ρ c (Proc.devRef .tc main_v6) = colF x1 :=
  ((show W4 (F := Ideal) m ρ c (Proc.devRef .tc main_v6) = W3 (F := Ideal) m ρ c (Proc.devRef .tc main_v6) from (W4_of_ne m ρ c main_v6 (by decide)))).trans (at3_v6 m ρ c x1 e1)
theorem at6_v15 : W6 (F := Ideal) m ρ c (Proc.devRef .tc main_v15) = dinvCol x1 :=
  ((show W6 (F := Ideal) m ρ c (Proc.devRef .tc main_v15) = W5 (F := Ideal) m ρ c (Proc.devRef .tc main_v15) from (W6_of_ne m ρ c main_v15 (by decide))).trans ((show W5 (F := Ideal) m ρ c (Proc.devRef .tc main_v15) = W4 (F := Ideal) m ρ c (Proc.devRef .tc main_v15) from (by nw)).trans ((show W4 (F := Ideal) m ρ c (Proc.devRef .tc main_v15) = W3 (F := Ideal) m ρ c (Proc.devRef .tc main_v15) from (W4_of_ne m ρ c main_v15 (by decide)))))).trans (at3_v15 m ρ c x1 e1)
theorem at6_v5 : W6 (F := Ideal) m ρ c (Proc.devRef .tc main_v5) = rowF x1 :=
  ((show W6 (F := Ideal) m ρ c (Proc.devRef .tc main_v5) = W5 (F := Ideal) m ρ c (Proc.devRef .tc main_v5) from (W6_of_ne m ρ c main_v5 (by decide))).trans ((show W5 (F := Ideal) m ρ c (Proc.devRef .tc main_v5) = W4 (F := Ideal) m ρ c (Proc.devRef .tc main_v5) from (by nw)).trans ((show W4 (F := Ideal) m ρ c (Proc.devRef .tc main_v5) = W3 (F := Ideal) m ρ c (Proc.devRef .tc main_v5) from (W4_of_ne m ρ c main_v5 (by decide)))))).trans (at3_v5 m ρ c x1 e1)
theorem at6_v6 : W6 (F := Ideal) m ρ c (Proc.devRef .tc main_v6) = colF x1 :=
  ((show W6 (F := Ideal) m ρ c (Proc.devRef .tc main_v6) = W5 (F := Ideal) m ρ c (Proc.devRef .tc main_v6) from (W6_of_ne m ρ c main_v6 (by decide))).trans ((show W5 (F := Ideal) m ρ c (Proc.devRef .tc main_v6) = W4 (F := Ideal) m ρ c (Proc.devRef .tc main_v6) from (by nw)).trans ((show W4 (F := Ideal) m ρ c (Proc.devRef .tc main_v6) = W3 (F := Ideal) m ρ c (Proc.devRef .tc main_v6) from (W4_of_ne m ρ c main_v6 (by decide)))))).trans (at3_v6 m ρ c x1 e1)
theorem at8_v1 : W8 (F := Ideal) m ρ c (Proc.devRef .tc main_v1) = rowE x1 :=
  ((show W8 (F := Ideal) m ρ c (Proc.devRef .tc main_v1) = W7 (F := Ideal) m ρ c (Proc.devRef .tc main_v1) from (W8_of_ne m ρ c main_v1 (by decide))).trans ((show W7 (F := Ideal) m ρ c (Proc.devRef .tc main_v1) = W6 (F := Ideal) m ρ c (Proc.devRef .tc main_v1) from (by nw)).trans ((show W6 (F := Ideal) m ρ c (Proc.devRef .tc main_v1) = W5 (F := Ideal) m ρ c (Proc.devRef .tc main_v1) from (W6_of_ne m ρ c main_v1 (by decide))).trans ((show W5 (F := Ideal) m ρ c (Proc.devRef .tc main_v1) = W4 (F := Ideal) m ρ c (Proc.devRef .tc main_v1) from (by nw)).trans ((show W4 (F := Ideal) m ρ c (Proc.devRef .tc main_v1) = W3 (F := Ideal) m ρ c (Proc.devRef .tc main_v1) from (W4_of_ne m ρ c main_v1 (by decide)))))))).trans (at3_v1 m ρ c x1 e1)
theorem at8_v3 : W8 (F := Ideal) m ρ c (Proc.devRef .tc main_v3) = colE x1 :=
  ((show W8 (F := Ideal) m ρ c (Proc.devRef .tc main_v3) = W7 (F := Ideal) m ρ c (Proc.devRef .tc main_v3) from (W8_of_ne m ρ c main_v3 (by decide))).trans ((show W7 (F := Ideal) m ρ c (Proc.devRef .tc main_v3) = W6 (F := Ideal) m ρ c (Proc.devRef .tc main_v3) from (by nw)).trans ((show W6 (F := Ideal) m ρ c (Proc.devRef .tc main_v3) = W5 (F := Ideal) m ρ c (Proc.devRef .tc main_v3) from (W6_of_ne m ρ c main_v3 (by decide))).trans ((show W5 (F := Ideal) m ρ c (Proc.devRef .tc main_v3) = W4 (F := Ideal) m ρ c (Proc.devRef .tc main_v3) from (by nw)).trans ((show W4 (F := Ideal) m ρ c (Proc.devRef .tc main_v3) = W3 (F := Ideal) m ρ c (Proc.devRef .tc main_v3) from (W4_of_ne m ρ c main_v3 (by decide)))))))).trans (at3_v3 m ρ c x1 e1)

end Cert.KernelIdeal.HostChain

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.LibGcnHost.lean ====
/-
  THE HOST SIDE OF A GRAPH CONVOLUTION, READ AT AN INDEX, generic in the extents.

  An array indexing `x[idx]` first counts a negative index from the end (`select (idx < 0) (idx + n) idx`), presents the index
  vector as a column, and gathers rows, clamping; `segment_sum` scatters update rows into zeros at a column of
  indices, dropping what falls outside. Here these compositions are read at an index: the gathered entry is the
  operand's at the wrapped and clamped row, the scattered entry is the sum of the update rows sent to that row. An
  index that a scatter keeps is inside the range, so wrapping and clamping leave it alone (`clamp_wrap_of_row?`).
  Last, the symmetric normalizer `where(deg > 0, rsqrt(deg), 0)` is a real number that is not negative whatever
  `deg` is: where the guard holds, `deg` is a positive real or `+∞`, and the reciprocal root of either is a real
  ≥ 0; elsewhere it is 0.
-/
import Idealize.ShloMosaic.Lib.ValueIdx
import Idealize.ShloMosaic.Lib.Pipeline.Value
import Idealize.ShloMosaic.Lib.IdealHost
import Idealize.ShloMosaic.PureOps.Ideal.Laws
import proofs.«120741_j12326556139999_2_alg».proof.Proof.LibRowOps

noncomputable section

open scoped BigOperators
open Idealize.ShloMosaic Idealize.ShloMosaic.ValueIdx

namespace Cert.Lib

/-! ## A possibly negative row index -/

/-- The index word `w` counted from the end (`w + n`) when it is negative as a signed number, itself otherwise. -/
def wrapRow (n w : BitVec 32) : BitVec 32 := Scalar.select (IntOp.cmpi .slt w 0#32) (IntOp.addi w n) w

/-- The normalization of an index vector (a negative entry counts from the end), entry by entry. -/
theorem wrap_apply {s : Shape} (h0 hn : (⟨0, ![]⟩ : Shape).BroadcastsInDim s ![]) (n : BitVec 32) (v : IVec s 32) (i : s.Idx) :
    select (cmpi .slt v (broadcastInDim s ![] h0 (constantI ⟨0, ![]⟩ 32 0#32)))
        (addi v (broadcastInDim s ![] hn (constantI ⟨0, ![]⟩ 32 n))) v i = wrapRow n (v i) := by
  show Scalar.select (IntOp.cmpi .slt (v i) (broadcastInDim s ![] h0 (constantI ⟨0, ![]⟩ 32 0#32) i))
      (IntOp.addi (v i) (broadcastInDim s ![] hn (constantI ⟨0, ![]⟩ 32 n) i)) (v i) = _
  rw [broadcastInDim_scalar_apply, broadcastInDim_scalar_apply]
  rfl

/-- A word that is a row of an `n`-row array is not negative and below `n`: wrapping leaves it alone. -/
theorem wrapRow_of_row? {N : Nat} (hN32 : N < 2 ^ 31) (w : BitVec 32) (i : Fin N) (h : row? N w = some i) :
    wrapRow (BitVec.ofNat 32 N) w = w := by
  rw [row?_eq_some_iff] at h
  unfold wrapRow
  have hnn : ¬ (IntOp.cmpi .slt w 0#32 = 1) := by
    intro hc
    have h0 : w.toInt < 0 := by
      by_contra hlt
      simp [IntOp.cmpi, BitVec.slt, hlt] at hc
    omega
  unfold Scalar.select
  rw [if_neg hnn]

/-- An index a scatter keeps (`row?`) is the row a gather reads after wrapping and clamping. -/
theorem clamp_wrap_of_row? {N : Nat} (hN : 0 < N) (hN32 : N < 2 ^ 31) (w : BitVec 32) (i : Fin N) (h : row? N w = some i) :
    clampRow N hN (wrapRow (BitVec.ofNat 32 N) w) = i := by
  rw [wrapRow_of_row? hN32 w i h]; exact clampRow_of_row? hN w i h

/-! ## An index vector as a column -/

/-- An index vector `[E]` presented as a column `[E, 1]` reads the vector at the row. -/
theorem idxCol_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    split
    · have := e.isLt; omega
    · rfl

/-! ## Gather of rows at a wrapped index vector; scatter of rows into zeros -/

section
variable {N E D : Nat}

/-- `x[v]` for a 2-d `x` and an index vector `v` already normalized: the row `v e`, clamped. -/
theorem gatherRows_apply {α : Type} (hN : 0 < N)
    (wf : GatherDims.WF ⟨2, ![N, D]⟩ ⟨2, ![E, 1]⟩ ⟨2, ![E, D]⟩ [1] [0] [] [0] [] 1 ![1, D])
    (hb : (⟨1, ![E]⟩ : Shape).BroadcastsInDim ⟨2, ![E, 1]⟩ ![0])
    (x : (⟨2, ![N, D]⟩ : Shape).Idx → α) (v : IVec ⟨1, ![E]⟩ 32) (e : Fin E) (k : Fin D) :
    Host.gather (rowGather N E D wf) x (broadcastInDim ⟨2, ![E, 1]⟩ ![0] hb v) (ix2 e k)
      = x (ix2 (clampRow N hN (v (ix1 e))) k) := by
  rw [rowGather_apply hN wf, idxCol_apply]

/-- `segment_sum(upd, v)` of update rows into an all-zero `[N, D]` array: the sum of the rows sent to row `i`. -/
theorem scatterRows_apply
    (wf : ScatterDims.WF ⟨2, ![N, D]⟩ ⟨2, ![E, 1]⟩ ⟨2, ![E, D]⟩ [1] [0] [0] 1)
    (hb : (⟨1, ![E]⟩ : Shape).BroadcastsInDim ⟨2, ![E, 1]⟩ ![0])
    (h0 : (⟨0, ![]⟩ : Shape).BroadcastsInDim ⟨2, ![N, D]⟩ ![])
    (v : IVec ⟨1, ![E]⟩ 32) (upd : FVec Ideal ⟨2, ![E, D]⟩ .f32) (i : Fin N) (k : Fin D) :
    Host.scatterAdd (F := Ideal) (rowScatter N E D wf)
        (broadcastInDim ⟨2, ![N, D]⟩ ![] h0 (constant (F := Ideal) ⟨0, ![]⟩ .f32 0x00000000#32))
        (broadcastInDim ⟨2, ![E, 1]⟩ ![0] hb v) upd (ix2 i k)
      = ∑ e ∈ Finset.univ.filter (fun e : Fin E => row? N (v (ix1 e)) = some i), upd (ix2 e k) := by
  rw [rowScatterAdd_apply wf, broadcastInDim_scalar_apply, constant_apply, Ideal.ofBits_zero_f32, zero_add]
  refine Finset.sum_congr (Finset.filter_congr fun e _ => ?_) fun _ _ => rfl
  rw [idxCol_apply hb v e 0]

end

/-! ## Gather from a vector: `c[v]` for a 1-d array `c` -/

section VecGather
variable {α : Type}

/-- The dimension numbers of `c[idx]`: an operand `[N]`, start indices `[E, 1]`, a result `[E]`; the one axis is
    collapsed, slices have one element. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the index `idx[e, 0]`, read signed and clamped into `[0, N - 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e 0)))) := by
  unfold Host.gather
  congr 1
  funext a
  refine Fin.ext ?_
  match a with
  | ⟨0, _⟩ =>
    show (vecGather N E wf).start (ix1 e) idx 0 + (vecGather N E wf).batchCoord (ix1 e) 0
      + (vecGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- `c[v]` for a 1-d `c` and an index vector `v` already normalized. -/
theorem gatherVec_apply {N E : Nat} (hN : 0 < N)
    (wf : GatherDims.WF ⟨1, ![N]⟩ ⟨2, ![E, 1]⟩ ⟨1, ![E]⟩ [] [0] [] [0] [] 1 ![1])
    (hb : (⟨1, ![E]⟩ : Shape).BroadcastsInDim ⟨2, ![E, 1]⟩ ![0])
    (x : (⟨1, ![N]⟩ : Shape).Idx → α) (v : IVec ⟨1, ![E]⟩ 32) (e : Fin E) :
    Host.gather (vecGather N E wf) x (broadcastInDim ⟨2, ![E, 1]⟩ ![0] hb v) (ix1 e)
      = x (ix1 (clampRow N hN (v (ix1 e)))) := by
  rw [vecGather_apply hN wf, idxCol_apply]

end VecGather

/-! ## The guarded reciprocal root is a real that is not negative -/

/-- The reciprocal root of an extended real above zero is a real number ≥ 0 (of `+∞` it is 0). -/
theorem exists_real_rsqrt_of_pos (d : EReal) (hd : 0 < d) : ∃ r : ℝ, 0 ≤ r ∧ Ideal.rsqrt d = (r : EReal) := by
  induction d using EReal.rec with
  | bot => exact absurd hd (by simp)
  | top => exact ⟨0, le_refl _, by simp⟩
  | coe r =>
    have hr : 0 < r := by exact_mod_cast hd
    refine ⟨(Real.sqrt r)⁻¹, inv_nonneg.mpr (Real.sqrt_nonneg r), ?_⟩
    rw [Ideal.rsqrt_coe, if_neg (not_lt.mpr hr.le), if_neg hr.ne']

/-- `where(d > 0, rsqrt(d), 0)`, entry by entry, is a real number that is not negative, whatever `d` is. -/
theorem exists_real_guarded_rsqrt {s : Shape} (d z z' : FVec Ideal s .f32) (hz : ∀ i, z i = 0) (hz' : ∀ i, z' i = 0) (i : s.Idx) :
    ∃ r : ℝ, 0 ≤ r ∧ select (cmpf .ogt d z) (Host.rsqrt d) z' i = (r : EReal) := by
  show ∃ r : ℝ, 0 ≤ r ∧ Scalar.select (Ideal.cmp .ogt (d i) (z i)) (Ideal.rsqrt (d i)) (z' i) = (r : EReal)
  rw [hz, hz']
  by_cases hd : 0 < d i
  · have hc : Ideal.cmp .ogt (d i) 0 = 1#1 := by simp [Ideal.cmp, hd]
    rw [hc, select_one]
    exact exists_real_rsqrt_of_pos _ hd
  · have hc : Ideal.cmp .ogt (d i) 0 = 0#1 := by simp [Ideal.cmp, hd]
    rw [hc, select_zero]
    exact ⟨0, le_refl _, by simp⟩

end Cert.Lib

end
-- ==== Proof.GnnSpec.lean ====
/-
  TWO GRAPH-CONVOLUTION LAYERS AND AN EDGE CLASSIFIER, IN TWO ARRANGEMENTS, AND WHY THEY AGREE.

  Messages `j` (the edges and one self-loop per node) carry a source row `src j` — the index word wrapped and
  clamped, as a gather reads it — and go to the row their target word names when it is a row at all (`row?`).
  With a symmetric normalizer `d`, one arrangement scales the features by `d` at the source, sums per target and
  scales the sum by `d` at the target (`aggScaled`); the other multiplies each message by `d(src) · d(target)`
  before summing (`aggNormed`). A message that is kept has its target inside the range, so its clamped target is the
  row it is summed into; and a factor that is a real number ≥ 0 moves across a finite sum of extended reals. Hence
  the two agree entry by entry whenever every `d p` is a real ≥ 0 — the features may be any extended reals.
  The classifier's first layer contracts the concatenation of two gathered rows with a `[D + D, D]` matrix; that is
  the sum of the two rows' contractions with the matrix's upper and lower halves, so projecting every node row once
  with each half and gathering the projections gives the same scores. The logistic function is by definition
  `1 / (1 + e^(-x))` on the extended reals.
-/
import Idealize.ShloMosaic.PureOps.Ideal
import proofs.«120741_j12326556139999_2_alg».proof.Proof.LibERealSum
import proofs.«120741_j12326556139999_2_alg».proof.Proof.LibGcnHost

noncomputable section

open scoped BigOperators
open Idealize.ShloMosaic Cert.Lib

namespace Cert.Gnn

variable {N M E D : Nat} (hN : 0 < N)

/-- The row a gather reads for the index word `w`: counted from the end when negative, then clamped. -/
def srcRow (w : BitVec 32) : Fin N := clampRow N hN (wrapRow (BitVec.ofNat 32 N) w)

section Layer
variable (rowF colF : Fin M → BitVec 32) (d : Fin N → EReal) (h : Fin N → Fin D → EReal)

/-- Scale at the source, sum per target row, scale at the target. -/
def aggScaled (p : Fin N) (q : Fin D) : EReal :=
  (∑ j ∈ Finset.univ.filter (fun j : Fin M => row? N (colF j) = some p),
      h (srcRow hN (rowF j)) q * d (srcRow hN (rowF j))) * d p

/-- Multiply each message by the product of the normalizers at its two ends, then sum per target row. -/
def aggNormed (p : Fin N) (q : Fin D) : EReal :=
  ∑ j ∈ Finset.univ.filter (fun j : Fin M => row? N (colF j) = some p),
    h (srcRow hN (rowF j)) q * (d (srcRow hN (rowF j)) * d (srcRow hN (colF j)))

/-- THE LAYER LAW: the two arrangements agree when the normalizer's entries are reals that are not negative. -/
theorem aggScaled_eq_aggNormed (hN32 : N < 2 ^ 31) (hd : ∀ p, ∃ r : ℝ, 0 ≤ r ∧ d p = (r : EReal)) :
    aggScaled hN rowF colF d h = aggNormed hN rowF colF d h := by
  funext p q
  obtain ⟨r, hr, hp⟩ := hd p
  unfold aggScaled aggNormed
  rw [hp, sum_mul_coe _ _ hr]
  refine Finset.sum_congr rfl fun j hj => ?_
  have hj' : row? N (colF j) = some p := (Finset.mem_filter.mp hj).2
  have : srcRow hN (colF j) = p := clamp_wrap_of_row? hN hN32 (colF j) p hj'
  rw [this, hp, mul_assoc]

end Layer

section Whole
variable (rowF colF : Fin M → BitVec 32) (rowE colE : Fin E → BitVec 32) (d : Fin N → EReal)
variable (x : Fin N → Fin D → EReal) (W1 : Fin D → Fin D → EReal) (b1 : Fin D → EReal)
variable (W2 : Fin D → Fin D → EReal) (b2 : Fin D → EReal) (We1 : Fin (D + D) → Fin D → EReal) (be1 : Fin D → EReal)
variable (We2 : Fin D → EReal) (be2 : EReal)

/-- A plain matrix product, entry by entry. -/
def dense {A K B : Nat} (a : Fin A → Fin K → EReal) (w : Fin K → Fin B → EReal) (p : Fin A) (q : Fin B) : EReal :=
  ∑ k : Fin K, a p k * w k q

/-- Bias, rectifier, then a matrix product, entry by entry. -/
def reluDense {A K B : Nat} (a : Fin A → Fin K → EReal) (b : Fin K → EReal) (w : Fin K → Fin B → EReal) (p : Fin A) (q : Fin B) : EReal :=
  ∑ k : Fin K, max (a p k + b k) 0 * w k q

/-- The second layer's aggregate in the scaled arrangement: the tiles' road. -/
def agg2Scaled : Fin N → Fin D → EReal :=
  aggScaled hN rowF colF d (reluDense (aggScaled hN rowF colF d (dense x W1)) b1 W2)

/-- The second layer's aggregate in the normed arrangement: the reference's road. -/
def agg2Normed : Fin N → Fin D → EReal :=
  aggNormed hN rowF colF d
    (dense (fun p k => max (aggNormed hN rowF colF d (dense x W1) p k + b1 k) 0) W2)

/-- The edge scores from the two projections of every node row, gathered at the edge's two ends. -/
def scoreProjected (a2 : Fin N → Fin D → EReal) (e : Fin E) (q : Fin D) : EReal :=
  reluDense a2 b2 (fun k q => We1 (Fin.castAdd D k) q) (srcRow hN (rowE e)) q
    + reluDense a2 b2 (fun k q => We1 (Fin.natAdd D k) q) (srcRow hN (colE e)) q

/-- The edge scores from the concatenated end rows contracted with the whole matrix. -/
def scoreConcat (a2 : Fin N → Fin D → EReal) (e : Fin E) (q : Fin D) : EReal :=
  ∑ k : Fin (D + D), Fin.append (fun k => max (a2 (srcRow hN (rowE e)) k + b2 k) 0)
      (fun k => max (a2 (srcRow hN (colE e)) k + b2 k) 0) k * We1 k q

theorem scoreProjected_eq_scoreConcat (a2 : Fin N → Fin D → EReal) :
    scoreProjected hN rowE colE b2 We1 a2 = scoreConcat hN rowE colE b2 We1 a2 := by
  funext e q
  unfold scoreProjected scoreConcat reluDense
  rw [Fin.sum_univ_add]
  simp only [Fin.append_left, Fin.append_right]

/-- What the tiles and the host operations around them compute for edge `e`. -/
def kernelOut (e : Fin E) : EReal :=
  Ideal.logistic ((∑ k : Fin D, max (scoreProjected hN rowE colE b2 We1 (agg2Scaled hN rowF colF d x W1 b1 W2) e k + be1 k) 0 * We2 k) + be2)

/-- What the reference computes for edge `e`. -/
def refOut (e : Fin E) : EReal :=
  Ideal.div 1 (1 + Ideal.exp (-((∑ k : Fin D, max (scoreConcat hN rowE colE b2 We1 (agg2Normed hN rowF colF d x W1 b1 W2) e k + be1 k) 0 * We2 k) + be2)))

/-- THE BRIDGE: the two programs' results agree, edge by edge, when the normalizer's entries are reals ≥ 0. -/
theorem kernelOut_eq_refOut (hN32 : N < 2 ^ 31) (hd : ∀ p, ∃ r : ℝ, 0 ≤ r ∧ d p = (r : EReal)) :
    kernelOut hN rowF colF rowE colE d x W1 b1 W2 b2 We1 be1 We2 be2
      = refOut hN rowF colF rowE colE d x W1 b1 W2 b2 We1 be1 We2 be2 := by
  funext e
  have h2 : agg2Scaled hN rowF colF d x W1 b1 W2 = agg2Normed hN rowF colF d x W1 b1 W2 := by
    unfold agg2Scaled agg2Normed
    rw [aggScaled_eq_aggNormed hN rowF colF d _ hN32 hd, aggScaled_eq_aggNormed hN rowF colF d _ hN32 hd]
    rfl
  unfold kernelOut refOut
  rw [h2, scoreProjected_eq_scoreConcat]
  rfl

end Whole

end Cert.Gnn

end
-- ==== Proof.KernelHostRead.lean ====
/-
  THE HOST OPERATIONS BETWEEN THE TILES, READ AT AN INDEX.

  One layer's aggregation around a dense product, read at (p, q), is the scaled arrangement of the specification
  (`Cert.Gnn.aggScaled`): the gather reads the product and the normalizer at the wrapped and clamped source row, the
  scatter into zeros sums the rows sent to `p`, and the two products with the broadcast normalizer column are the
  scalings at the source and at the target. The edge stage's sum of two gathers reads the two projections at the
  edge's two end rows. The remaining operations only re-lay small operands: a vector as a row, a matrix's upper and
  lower halves, a column as a row, a column as a vector.
-/
import proofs.«120741_j12326556139999_2_alg».proof.Proof.KernelHostOps
import proofs.«120741_j12326556139999_2_alg».proof.Proof.GnnSpec
import Idealize.ShloMosaic.Lib.ValueLayout
import Idealize.ShloMosaic.Lib.Pipeline.Value

noncomputable section

open scoped BigOperators

namespace Cert.KernelIdeal.HostChain

open Cert.KernelIdeal Cert.KernelIdeal.Gen Idealize.ShloMosaic Idealize.ShloMosaic.ValueIdx Cert.Lib

/-- A column `[a, 1]` repeated along `b` columns reads, at (p, q), the column at row p. -/
theorem colBcast_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split_ifs with ha
      · have := p.isLt; omega
      · rfl
    | ⟨1, _⟩ => rfl

/-- The printed row gather and row scatter are the general ones. -/
theorem gather850_eq : gather_S50000x128_S850000x1_S850000x128_1_0_n_n_0_1_1128
    = rowGather 50000 850000 128 gather_S50000x128_S850000x1_S850000x128_1_0_n_n_0_1_1128_wf := rfl
theorem gather800_eq : gather_S50000x128_S800000x1_S800000x128_1_0_n_n_0_1_1128
    = rowGather 50000 800000 128 gather_S50000x128_S800000x1_S800000x128_1_0_n_n_0_1_1128_wf := rfl
theorem scatter850_eq : scatter_S50000x128_S850000x1_S850000x128_1_0_0_1
    = rowScatter 50000 850000 128 scatter_S50000x128_S850000x1_S850000x128_1_0_0_1_wf := rfl

/-- THE LAYER ON THE HOST, AT (p, q): the specification's scaled arrangement around `h`. -/
theorem layerHost_apply (h : FVec Ideal S50000x128 .f32) (dcol : FVec Ideal S50000x1 .f32) (vrow vcol : IVec S850000 32)
    (p : Fin 50000) (q : Fin 128) :
    layerHost h dcol vrow vcol (ix2 p q)
      = Cert.Gnn.aggScaled (N := 50000) (M := 850000) (D := 128) (by decide) (fun j => vrow (ix1 j)) (fun j => vcol (ix1 j))
          (fun p => dcol (ix2 p (0 : Fin 1))) (fun p q => h (ix2 p q)) p q := by
  unfold layerHost Cert.Gnn.aggScaled wrapCol850
  rw [mulf_apply, colBcast_apply, scatter850_eq, scatterRows_apply]
  refine congrArg (fun s => s * dcol (ix2 p (0 : Fin 1))) (Finset.sum_congr rfl fun j _ => ?_)
  rw [gather850_eq, gatherRows_apply (by decide), mulf_apply, colBcast_apply, wrap_apply]
  rfl

/-- THE EDGE STAGE'S INPUT, AT (e, q): the two projections at the edge's two end rows. -/
theorem edgeSum_apply (a1 a2 : FVec Ideal S50000x128 .f32) (vrow vcol : IVec S800000 32) (e : Fin 800000) (q : Fin 128) :
    edgeSum a1 a2 vrow vcol (ix2 e q)
      = a1 (ix2 (Cert.Gnn.srcRow (N := 50000) (by decide) (vrow (ix1 e))) q)
        + a2 (ix2 (Cert.Gnn.srcRow (N := 50000) (by decide) (vcol (ix1 e))) q) := by
  unfold edgeSum wrapCol800
  rw [addf_apply, gather800_eq, gatherRows_apply (by decide), gatherRows_apply (by decide), wrap_apply, wrap_apply]
  rfl

/-- The normalizer column at row p is the normalizer vector at p. -/
theorem dinvCol_apply (x1 : IVec S2x800000 32) (p : Fin 50000) : dinvCol x1 (ix2 p (0 : Fin 1)) = dinv x1 (ix1 p) := by
  unfold dinvCol; exact idxCol_apply _ _ p 0

/-- The normalizer's entries are real numbers that are not negative. -/
theorem dinv_real (x1 : IVec S2x800000 32) (p : Fin 50000) : ∃ r : ℝ, 0 ≤ r ∧ dinv x1 (ix1 p) = (r : EReal) := by
  unfold dinv
  refine exists_real_guarded_rsqrt _ _ _ (fun i => ?_) (fun i => ?_) (ix1 p)
  · rw [broadcastInDim_scalar_apply, constant_apply, Ideal.ofBits_zero_f32]
  · rw [broadcastInDim_scalar_apply]; show Ideal.ofBits .f32 0x00000000#32 = 0; exact Ideal.ofBits_zero_f32

/-- A bias vector as a row, at (0, k). -/
theorem biasRow_apply (x : FVec Ideal S128 .f32) (k : Fin 128) :
    shapeCast S1x128 x shapeCasts_S128_S1x128 (ix2 (0 : Fin 1) k) = x (ix1 k) := shapeCast_a_1a_apply x _ 0 k
/-- The upper half of the `[256, 128]` matrix. -/
theorem upper_apply (x6 : FVec Ideal S256x128 .f32) (k q : Fin 128) :
    extractStridedSlice S128x128 ![0, 0] x6 slices_S256x128_S128x128_0_0 (ix2 k q) = x6 (ix2 (Fin.castAdd 128 k) q) :=
  slice2_axis0_apply 0 x6 _ k q (Fin.castAdd 128 k) (by show k.val = 0 + k.val; omega)
/-- The lower half of the `[256, 128]` matrix. -/
theorem lower_apply (x6 : FVec Ideal S256x128 .f32) (k q : Fin 128) :
    extractStridedSlice S128x128 ![128, 0] x6 slices_S256x128_S128x128_128_0 (ix2 k q) = x6 (ix2 (Fin.natAdd 128 k) q) :=
  slice2_axis0_apply 128 x6 _ k q (Fin.natAdd 128 k) (by show 128 + k.val = 128 + k.val; rfl)
/-- The `[128, 1]` weight column as a row, at (0, k). -/
theorem weightRow_apply (x8 : FVec Ideal S128x1 .f32) (k : Fin 128) :
    transpose S1x128 [1, 0] x8 transposes_S128x1_S1x128_1_0 (ix2 (0 : Fin 1) k) = x8 (ix2 k (0 : Fin 1)) :=
  transpose_ix2_apply x8 _ 0 k
/-- The one-entry bias as a `[1, 1]` array. -/
theorem bias11_apply (x9 : FVec Ideal S1 .f32) :
    shapeCast S1x1 x9 shapeCasts_S1_S1x1 (ix2 (0 : Fin 1) (0 : Fin 1)) = x9 (ix1 (0 : Fin 1)) := shapeCast_a_1a_apply x9 _ 0 0
/-- The result column as a vector, at e. -/
theorem outVec_apply (o : FVec Ideal S800000x1 .f32) (e : Fin 800000) :
    shapeCast S800000 o shapeCasts_S800000x1_S800000 (ix1 e) = o (ix2 e (0 : Fin 1)) :=
  shapeCast_apply o _ _ _ (by
    rw [Shape.rowMajor_val_two, Shape.rowMajor_val_one]
    show e.val * 1 + 0 = e.val
    omega)

end Cert.KernelIdeal.HostChain

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.TileBase.lean ====
/-
  What the regions' bodies compute, read at one position of the result block, at the ideal values: every float
  operation is the extended reals' and a format change is the identity. A bias row added to a block and clamped at
  zero, a sum along a row, a vector stood up as a column, a 1×1 block spread down a column, and the plain matrix
  product into the zero accumulator read as the usual formulas over the loaded blocks.
-/
import proofs.«120741_j12326556139999_2_alg».proof.Proof.Gen.KernelIdeal.Skeleton
import proofs.«120741_j12326556139999_2_alg».proof.Proof.LibMatmul2
import Idealize.ShloMosaic.Lib.Pipeline.Value
import Idealize.ShloMosaic.Lib.ValueLayout
import Idealize.ShloMosaic.Lib.ValueIdx

noncomputable section

namespace Cert.KernelIdeal.Tiles

open Cert.KernelIdeal Cert.KernelIdeal.Gen Idealize.ShloMosaic Idealize.ShloMosaic.ValueIdx

/-- The zero offsets of a whole-block access, spelt as a constant function. -/
theorem hz : (![0, 0] : Fin 2 → Nat) = fun _ => 0 := funext fun a => by fin_cases a <;> rfl

/-- The printed dimension numbers of the 5000×128 by 128×128 product are the plain matrix product's. -/
theorem dot_eq_plain2 :
    dot_S5000x128_S128x128_S5000x128_1_0_0_1_n_n
      = Cert.Lib.plain2 (A := 5000) (K := 128) (B := 128) dot_S5000x128_S128x128_S5000x128_1_0_0_1_n_n_wf := rfl

section Generic
variable {A B : ℕ} {α : Type}

/-- A block plus a bias row spread over its rows, clamped below at zero, at (p, q): max (x(p, q) + b(0, q)) 0. -/
theorem biasRelu_apply (x : FVec Ideal ⟨2, ![A, B]⟩ .f32) (b : FVec Ideal ⟨2, ![1, B]⟩ .f32)
    (hx : (⟨2, ![A, B]⟩ : Shape).ShapeCasts ⟨2, ![A, B]⟩) (hb : (⟨2, ![1, B]⟩ : Shape).ShapeCasts ⟨2, ![1, B]⟩)
    (hbc : (⟨2, ![1, B]⟩ : Shape).Broadcasts ⟨2, ![A, B]⟩) (p : Fin A) (q : Fin B) :
    maximumf (addf (shapeCast ⟨2, ![A, B]⟩ x hx) (broadcastTo ⟨2, ![A, B]⟩ (shapeCast ⟨2, ![1, B]⟩ b hb) hbc))
        (broadcast ⟨2, ![A, B]⟩ (Scalar.ofBits (F := Ideal) .f32 0x00000000#32)) (ix2 p q)
      = max (x (ix2 p q) + b (ix2 (0 : Fin 1) q)) 0 := by
  rw [maximumf_apply, addf_apply, shapeCast_self, shapeCast_self, broadcastTo_1b_ab_apply, broadcast_apply]
  show max _ (Ideal.ofBits .f32 0x00000000#32) = _
  rw [Ideal.ofBits_zero_f32]

/-- A sum along axis 1 from the zero word, at row e: the sum of that row's entries. -/
theorem rowSum_apply (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (e : Fin A) :
    multiReduction .add [(1 : Fin 2)] ⟨1, ![A]⟩ src 0x00000000#32 h hφ hacc (ix1 e) = ∑ k : Fin B, src (ix2 e k) := by
  refine (Ideal.multiReduction_add_single src 0x00000000#32 h hφ hacc (ix1 e)).trans ?_
  refine Finset.sum_congr rfl fun k _ => congrArg src ?_
  funext c
  apply Fin.ext
  rw [h.lift_val]
  match c with
  | ⟨0, _⟩ => simp [Shape.Reduces.liftVal]
  | ⟨1, _⟩ => simp [Shape.Reduces.liftVal]

/-- A vector of length a stood up as an a×1 column reads, at (e, u), the vector at e. -/
theorem shapeCast_a_a1_apply (x : (⟨1, ![A]⟩ : Shape).Idx → α) (h : (⟨1, ![A]⟩ : Shape).ShapeCasts ⟨2, ![A, 1]⟩)
    (e : Fin A) (u : Fin 1) : shapeCast ⟨2, ![A, 1]⟩ x h (ix2 e u) = x (ix1 e) :=
  shapeCast_apply x h _ _ (by
    have hu : u.val = 0 := by omega
    rw [Shape.rowMajor_val_two, Shape.rowMajor_val_one]
    show e.val = e.val * 1 + u.val
    omega)

/-- A 1×1 block spread down an a×1 column reads its one entry everywhere. -/
theorem broadcastTo_11_a1_apply (v : (⟨2, ![1, 1]⟩ : Shape).Idx → α) (h : (⟨2, ![1, 1]⟩ : Shape).Broadcasts ⟨2, ![A, 1]⟩)
    (e : Fin A) (u : Fin 1) : broadcastTo ⟨2, ![A, 1]⟩ v h (ix2 e u) = v (ix2 (0 : Fin 1) (0 : Fin 1)) := by
  refine broadcastTo_apply v h (ix2 e u) (ix2 (0 : Fin 1) (0 : Fin 1)) fun ax => ?_
  match ax with
  | ⟨0, _⟩ => rfl
  | ⟨1, _⟩ => rfl

end Generic

/-- Region 0's body at (p, q): row p of the left block times column q of the right block. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  rw [dot_eq_plain2]
  exact Cert.Lib.matmul2_zero_apply _ _ _ p q

/-- Region 1's body at (p, q): row p of the biased, clamped left block times column q of the right block. -/
theorem pay1_apply (x0 : Vec Ideal S5000x128 .f32) (x1 : Vec Ideal S1x128 .f32) (x2 : Vec Ideal S128x128 .f32)
    (p : Fin 5000) (q : Fin 128) :
    k1_pay1 (F := Ideal) x0 x1 x2 (ix2 p q)
      = ∑ k : Fin 128, max (x0 (ix2 p k) + x1 (ix2 (0 : Fin 1) k)) 0 * x2 (ix2 k q) := by
  unfold k1_pay1
  rw [dot_eq_plain2]
  refine (Cert.Lib.matmul2_zero_apply _ _ _ p q).trans ?_
  refine Finset.sum_congr rfl fun k _ => ?_
  rw [truncf_apply, truncf_apply, biasRelu_apply]

/-- Region 2's shared left factor at (p, k). -/
theorem pay2_left_apply (x0 : Vec Ideal S5000x128 .f32) (x1 : Vec Ideal S1x128 .f32) (p : Fin 5000) (k : Fin 128) :
    k2_pay1 (F := Ideal) x0 x1 (ix2 p k) = max (x0 (ix2 p k) + x1 (ix2 (0 : Fin 1) k)) 0 := by
  unfold k2_pay1
  rw [truncf_apply, biasRelu_apply]

/-- Region 2's first product at (p, q). -/
theorem pay2a_apply (x0 : Vec Ideal S5000x128 .f32) (x1 : Vec Ideal S1x128 .f32) (x2 : Vec Ideal S128x128 .f32)
    (p : Fin 5000) (q : Fin 128) :
    k2_pay2 (F := Ideal) x0 x1 x2 (ix2 p q)
      = ∑ k : Fin 128, max (x0 (ix2 p k) + x1 (ix2 (0 : Fin 1) k)) 0 * x2 (ix2 k q) := by
  unfold k2_pay2
  rw [dot_eq_plain2]
  refine (Cert.Lib.matmul2_zero_apply _ _ _ p q).trans ?_
  refine Finset.sum_congr rfl fun k _ => ?_
  rw [pay2_left_apply, truncf_apply, shapeCast_self]

/-- Region 2's second product at (p, q). -/
theorem pay2b_apply (x0 : Vec Ideal S5000x128 .f32) (x1 : Vec Ideal S1x128 .f32) (x3 : Vec Ideal S128x128 .f32)
    (p : Fin 5000) (q : Fin 128) :
    k2_pay3 (F := Ideal) x0 x1 x3 (ix2 p q)
      = ∑ k : Fin 128, max (x0 (ix2 p k) + x1 (ix2 (0 : Fin 1) k)) 0 * x3 (ix2 k q) := by
  unfold k2_pay3
  rw [dot_eq_plain2]
  refine (Cert.Lib.matmul2_zero_apply _ _ _ p q).trans ?_
  refine Finset.sum_congr rfl fun k _ => ?_
  rw [pay2_left_apply, truncf_apply, shapeCast_self]

/-- Region 3's body at row e: the logistic of the biased, clamped row weighted by a row vector and summed, plus a scalar. -/
theorem pay3_apply (x0 : Vec Ideal S6400x128 .f32) (x1 x2 : Vec Ideal S1x128 .f32) (x3 : Vec Ideal S1x1 .f32)
    (e : Fin 6400) :
    k3_pay1 (F := Ideal) x0 x1 x2 x3 (ix2 e (0 : Fin 1))
      = Ideal.logistic ((∑ k : Fin 128, max (x0 (ix2 e k) + x1 (ix2 (0 : Fin 1) k)) 0 * x2 (ix2 (0 : Fin 1) k))
          + x3 (ix2 (0 : Fin 1) (0 : Fin 1))) := by
  unfold k3_pay1
  have hlog : ∀ (v : FVec Ideal S6400x1 .f32) (i : S6400x1.Idx), logistic v i = Ideal.logistic (v i) := fun _ _ => rfl
  rw [hlog, addf_apply, shapeCast_a_a1_apply, broadcastTo_11_a1_apply, shapeCast_self x3]
  refine congrArg (fun s => Ideal.logistic (s + x3 (ix2 (0 : Fin 1) (0 : Fin 1)))) ?_
  refine (rowSum_apply _ _ _ _ e).trans ?_
  refine Finset.sum_congr rfl fun k _ => ?_
  rw [mulf_apply, biasRelu_apply, shapeCast_self, broadcastTo_1b_ab_apply]

end Cert.KernelIdeal.Tiles

end
-- ==== Proof.Tile0.lean ====
/-
  Region 0, entry by entry. The region walks ten blocks of 5000 rows; at block t it multiplies rows
  5000 t … 5000 t + 4999 of a 50000×128 array by a whole 128×128 array and writes the same rows of its output. Every
  row lies in exactly the block t = row / 5000, so after the region the output is the product of the two arrays:
  entry (p, q) is ∑ₖ A(p, k) · B(k, q), whatever the arrays held when the region was entered.
-/
import proofs.«120741_j12326556139999_2_alg».proof.Proof.Gen.KernelIdeal.Frame
import proofs.«120741_j12326556139999_2_alg».proof.Proof.TileBase
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the product of a 50000×128 and a 128×128 array. -/
def prod0 (A : S50000x128.Idx → EReal) (B : S128x128.Idx → EReal) (p : Fin 50000) (q : Fin 128) : EReal :=
  ∑ k : Fin 128, A (ix2 p k) * B (ix2 k q)

/-- The product as one function of the array index. -/
abbrev G0 (A : S50000x128.Idx → EReal) (B : S128x128.Idx → EReal) : S50000x128.Idx → Elt Ideal .f32 :=
  fun i => prod0 A B (i 0) (i 1)

section
variable (V : (c : Dev nD) → (b : Ref sig .tc) → Buf (Elt Ideal) ((c : Thread nD τ).loc b))

/-- The buffers of region 0's three windows. -/
theorem arr0_0 : Pipeline.arrRef spec0 0 = main_arg0 := rfl
theorem arr0_1 : Pipeline.arrRef spec0 1 = main_arg2 := rfl
theorem arr0_2 : Pipeline.arrRef spec0 2 = main_v16 := rfl

/-- Region 0's index maps over its ten points: the row-block windows sit at block row t, the weight window at its
    one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000 t … 5000 t + 4999 of its array. -/
theorem iblk0_0_apply (c : Dev nD) (t : Fin cfg0.N) (p : Fin 5000) (k : Fin 128) (i : S50000x128.Idx)
    (h0 : (i 0).val = t.val * 5000 + p.val) (h1 : (i 1).val = k.val) :
    (iblk0 V c 0 t : Vec Ideal S5000x128 .f32) (ix2 p k) = (V c main_arg0 : S50000x128.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The right window's block at every point is its whole array. -/
theorem iblk0_1_apply (c : Dev nD) (t : Fin cfg0.N) (k q : Fin 128) (i : S128x128.Idx)
    (h0 : (i 0).val = k.val) (h1 : (i 1).val = q.val) :
    (iblk0 V c 1 t : Vec Ideal S128x128 .f32) (ix2 k q) = (V c main_arg2 : S128x128.Idx → EReal) i := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t (0 : Fin 2) * 128 + 1 * k.val = (i 0).val; rw [e0, h0]; omega
  | ⟨1, _⟩ => show win0_1.index t (1 : Fin 2) * 128 + 1 * q.val = (i 1).val; rw [e1, h1]; omega

/-- What point t writes back is block t of the product of the two arrays as the region finds them. -/
theorem flushed0_eq (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = prod0 (V c main_arg0) (V c main_arg2) ((((cfg0.win 2).blk t).view.emb (ix2 p q)) 0)
        ((((cfg0.win 2).blk t).view.emb (ix2 p q)) 1)
  refine (pay0_apply (iblk0 V c 0 t) (iblk0 V c 1 t) p q).trans ?_
  unfold prod0
  refine Finset.sum_congr rfl fun k _ => ?_
  have h0 : ((((cfg0.win 2).blk t).view.emb (ix2 p q)) 0).val = t.val * 5000 + p.val := by
    show win0_2.index t (0 : Fin 2) * 5000 + 1 * p.val = _; rw [e4]; omega
  have h1 : ((((cfg0.win 2).blk t).view.emb (ix2 p q)) 1).val = q.val := by
    show win0_2.index t (1 : Fin 2) * 128 + 1 * q.val = _; rw [e5]; omega
  rw [iblk0_0_apply V c t p k (ix2 ((((cfg0.win 2).blk t).view.emb (ix2 p q)) 0) k) h0 rfl,
    iblk0_1_apply V c t k q (ix2 k ((((cfg0.win 2).blk t).view.emb (ix2 p q)) 1)) rfl h1]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v16).slice (win0_2.rect t)).set ↔ _
  rw [View.set_slice_whole, Rect.mem_set_unit]
  exact Iff.rfl

/-- Row r of the output lies in the block of point r / 5000: the ten blocks tile the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- After region 0 its output array is the product of the two arrays it read. -/
theorem final0 (c : Dev nD) :
    (dat0 (F := Ideal) V c).arrAt 2 cfg0.N = G0 (V c main_arg0) (V c main_arg2) :=
  (dat0 (F := Ideal) V c).arrAt_eq_of_cover 2 (G0 (V c main_arg0) (V c main_arg2))
    (fun t _ => flushed0_eq V c t) cover0

end

/-- Region 0, entry by entry: with A and B the two arrays it finds, its output at (p, q) is ∑ₖ A(p, k) · B(k, q). -/
theorem tile0 {V : (c : Dev nD) → (b : Ref sig .tc) → Buf (Elt Ideal) ((c : Thread nD τ).loc b)}
    (c : Dev nD) (A : S50000x128.Idx → EReal) (B : S128x128.Idx → EReal)
    (hA : V c main_arg0 = A) (hB : V c main_arg2 = B) (p : Fin 50000) (q : Fin 128) :
    (dat0 (F := Ideal) V c).arrAt 2 cfg0.N (ix2 p q) = ∑ k : Fin 128, A (ix2 p k) * B (ix2 k q) := by
  rw [final0 V c, hA, hB]
  rfl

end Cert.KernelIdeal.Tiles

end
-- ==== Proof.Tile1.lean ====
/-
  Region 1, entry by entry. The region walks ten blocks of 5000 rows; at block t it adds a bias row to rows
  5000 t … 5000 t + 4999 of a 50000×128 array, clamps the sums below at zero, multiplies by a whole 128×128 array and
  writes the same rows of its output. Every row lies in exactly the block t = row / 5000, so after the region the
  output at (p, q) is ∑ₖ max (A(p, k) + b(k)) 0 · W(k, q), whatever the arrays held when the region was entered.
-/
import proofs.«120741_j12326556139999_2_alg».proof.Proof.Gen.KernelIdeal.Frame
import proofs.«120741_j12326556139999_2_alg».proof.Proof.TileBase
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of a biased, clamped 50000×128 array times a 128×128 array. -/
def prod1 (A : S50000x128.Idx → EReal) (b : S1x128.Idx → EReal) (Wm : S128x128.Idx → EReal)
    (p : Fin 50000) (q : Fin 128) : EReal :=
  ∑ k : Fin 128, max (A (ix2 p k) + b (ix2 (0 : Fin 1) k)) 0 * Wm (ix2 k q)

/-- The same as one function of the array index. -/
abbrev G1 (A : S50000x128.Idx → EReal) (b : S1x128.Idx → EReal) (Wm : S128x128.Idx → EReal) :
    S50000x128.Idx → Elt Ideal .f32 :=
  fun i => prod1 A b Wm (i 0) (i 1)

section
variable (V : (c : Dev nD) → (b : Ref sig .tc) → Buf (Elt Ideal) ((c : Thread nD τ).loc b))

/-- The buffers of region 1's four windows. -/
theorem arr1_0 : Pipeline.arrRef spec1 0 = main_v30 := rfl
theorem arr1_1 : Pipeline.arrRef spec1 1 = main_v31 := rfl
theorem arr1_2 : Pipeline.arrRef spec1 2 = main_arg4 := rfl
theorem arr1_3 : Pipeline.arrRef spec1 3 = main_v32 := rfl

/-- Region 1's index maps over its ten points: the row-block windows sit at block row t, the bias and weight windows
    at their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left window's block at point t is rows 5000 t … 5000 t + 4999 of its array. -/
theorem iblk1_0_apply (c : Dev nD) (t : Fin cfg1.N) (p : Fin 5000) (k : Fin 128) (i : S50000x128.Idx)
    (h0 : (i 0).val = t.val * 5000 + p.val) (h1 : (i 1).val = k.val) :
    (iblk1 V c 0 t : Vec Ideal S5000x128 .f32) (ix2 p k) = (V c main_v30 : S50000x128.Idx → EReal) i := by
  obtain ⟨e0, e1, -⟩ := idx1 t
  unfold iblk1
  rw [View.read_apply]
  show V c main_v30 _ = V c main_v30 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- The bias window's block at every point is its whole one-row array. -/
theorem iblk1_1_apply (c : Dev nD) (t : Fin cfg1.N) (u : Fin 1) (k : Fin 128) (i : S1x128.Idx)
    (h0 : (i 0).val = u.val) (h1 : (i 1).val = k.val) :
    (iblk1 V c 1 t : Vec Ideal S1x128 .f32) (ix2 u k) = (V c main_v31 : S1x128.Idx → EReal) i := by
  obtain ⟨-, -, e0, e1, -⟩ := idx1 t
  unfold iblk1
  rw [View.read_apply]
  show V c main_v31 _ = V c main_v31 _
  congr 1
  funext a
  apply Fin.ext
  match a with
  | ⟨0, _⟩ => show win1_1.index t (0 : Fin 2) * 1 + 1 * u.val = (i 0).val; rw [e0, h0]; omega
  | ⟨1, _⟩ => show win1_1.index t (1 : Fin 2) * 128 + 1 * k.val = (i 1).val; rw [e1, h1]; omega

/-- The weight window's block at every point is its whole array. -/
theorem iblk1_2_apply (c : Dev nD) (t : Fin cfg1.N) (k q : Fin 128) (i : S128x128.Idx)
    (h0 : (i 0).val = k.val) (h1 : (i 1).val = q.val) :
    (iblk1 V c 2 t : Vec Ideal S128x128 .f32) (ix2 k q) = (V c main_arg4 : S128x128.Idx → EReal) i := by
  obtain ⟨-, -, -, -, e0, e1, -⟩ := idx1 t
  unfold iblk1
  rw [View.read_apply]
  show V c main_arg4 _ = V c main_arg4 _
  congr 1
  funext a
  apply Fin.ext
  match a with
  | ⟨0, _⟩ => show win1_2.index t (0 : Fin 2) * 128 + 1 * k.val = (i 0).val; rw [e0, h0]; omega
  | ⟨1, _⟩ => show win1_2.index t (1 : Fin 2) * 128 + 1 * q.val = (i 1).val; rw [e1, h1]; omega

/-- What point t writes back is block t of the biased, clamped product of the arrays as the region finds them. -/
theorem flushed1_eq (c : Dev nD) (t : Fin cfg1.N) :
    (dat1 (F := Ideal) V c).flushed 3 t
      = ((cfg1.win 3).blk t).view.read (Elt Ideal) (G1 (V c main_v30) (V c main_v31) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz,
    View.ld_unit_zero (S := S128x128) hz]
  obtain ⟨-, -, -, -, -, -, e6, e7⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = prod1 (V c main_v30) (V c main_v31) (V c main_arg4) ((((cfg1.win 3).blk t).view.emb (ix2 p q)) 0)
        ((((cfg1.win 3).blk t).view.emb (ix2 p q)) 1)
  refine (pay1_apply (iblk1 V c 0 t) (iblk1 V c 1 t) (iblk1 V c 2 t) p q).trans ?_
  unfold prod1
  refine Finset.sum_congr rfl fun k _ => ?_
  have h0 : ((((cfg1.win 3).blk t).view.emb (ix2 p q)) 0).val = t.val * 5000 + p.val := by
    show win1_3.index t (0 : Fin 2) * 5000 + 1 * p.val = _; rw [e6]; omega
  have h1 : ((((cfg1.win 3).blk t).view.emb (ix2 p q)) 1).val = q.val := by
    show win1_3.index t (1 : Fin 2) * 128 + 1 * q.val = _; rw [e7]; omega
  rw [iblk1_0_apply V c t p k (ix2 ((((cfg1.win 3).blk t).view.emb (ix2 p q)) 0) k) h0 rfl,
    iblk1_1_apply V c t 0 k (ix2 (0 : Fin 1) k) rfl rfl,
    iblk1_2_apply V c t k q (ix2 k ((((cfg1.win 3).blk t).view.emb (ix2 p q)) 1)) rfl h1]

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v32).slice (win1_3.rect t)).set ↔ _
  rw [View.set_slice_whole, Rect.mem_set_unit]
  exact Iff.rfl

/-- Row r of the output lies in the block of point r / 5000: the ten blocks tile the array. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 128 ≤ (i 1).val ∧ (i 1).val < win1_3.index t (1 : Fin 2) * 128 + 128
    rw [e7]; omega

/-- After region 1 its output array is the biased, clamped product of the arrays it read. -/
theorem final1 (c : Dev nD) :
    (dat1 (F := Ideal) V c).arrAt 3 cfg1.N = G1 (V c main_v30) (V c main_v31) (V c main_arg4) :=
  (dat1 (F := Ideal) V c).arrAt_eq_of_cover 3 (G1 (V c main_v30) (V c main_v31) (V c main_arg4))
    (fun t _ => flushed1_eq V c t) cover1

end

/-- Region 1, entry by entry: with A, b and W the arrays it finds, its output at (p, q) is
    ∑ₖ max (A(p, k) + b(0, k)) 0 · W(k, q). -/
theorem tile1 {V : (c : Dev nD) → (b : Ref sig .tc) → Buf (Elt Ideal) ((c : Thread nD τ).loc b)}
    (c : Dev nD) (A : S50000x128.Idx → EReal) (b : S1x128.Idx → EReal) (Wm : S128x128.Idx → EReal)
    (hA : V c main_v30 = A) (hb : V c main_v31 = b) (hW : V c main_arg4 = Wm) (p : Fin 50000) (q : Fin 128) :
    (dat1 (F := Ideal) V c).arrAt 3 cfg1.N (ix2 p q)
      = ∑ k : Fin 128, max (A (ix2 p k) + b (ix2 (0 : Fin 1) k)) 0 * Wm (ix2 k q) := by
  rw [final1 V c, hA, hb, hW]
  rfl

end Cert.KernelIdeal.Tiles

end
-- ==== Proof.Tile2.lean ====
/-
  Region 2, entry by entry. The region walks ten blocks of 5000 rows; at block t it adds a bias row to rows
  5000 t … 5000 t + 4999 of a 50000×128 array, clamps the sums below at zero, and multiplies the result by each of two
  whole 128×128 arrays, writing the same rows of its two outputs. Every row lies in exactly the block t = row / 5000,
  so after the region each output at (p, q) is ∑ₖ max (A(p, k) + b(k)) 0 · W(k, q) for its own W, whatever the arrays
  held when the region was entered.
-/
import proofs.«120741_j12326556139999_2_alg».proof.Proof.Gen.KernelIdeal.Frame
import proofs.«120741_j12326556139999_2_alg».proof.Proof.TileBase
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of a biased, clamped 50000×128 array times a 128×128 array. -/
def prod2 (A : S50000x128.Idx → EReal) (b : S1x128.Idx → EReal) (Wm : S128x128.Idx → EReal)
    (p : Fin 50000) (q : Fin 128) : EReal :=
  ∑ k : Fin 128, max (A (ix2 p k) + b (ix2 (0 : Fin 1) k)) 0 * Wm (ix2 k q)

/-- The same as one function of the array index. -/
abbrev G2 (A : S50000x128.Idx → EReal) (b : S1x128.Idx → EReal) (Wm : S128x128.Idx → EReal) :
    S50000x128.Idx → Elt Ideal .f32 :=
  fun i => prod2 A b Wm (i 0) (i 1)

section
variable (V : (c : Dev nD) → (b : Ref sig .tc) → Buf (Elt Ideal) ((c : Thread nD τ).loc b))

/-- The buffers of region 2's six windows. -/
theorem arr2_0 : Pipeline.arrRef spec2 0 = main_v46 := rfl
theorem arr2_1 : Pipeline.arrRef spec2 1 = main_v47 := rfl
theorem arr2_2 : Pipeline.arrRef spec2 2 = main_v48 := rfl
theorem arr2_3 : Pipeline.arrRef spec2 3 = main_v49 := rfl
theorem arr2_4 : Pipeline.arrRef spec2 4 = main_v50_0 := rfl
theorem arr2_5 : Pipeline.arrRef spec2 5 = main_v50_1 := rfl

/-- Region 2's index maps over its ten points: the row-block windows sit at block row t, the bias and weight windows
    at their one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The left window's block at point t is rows 5000 t … 5000 t + 4999 of its array. -/
theorem iblk2_0_apply (c : Dev nD) (t : Fin cfg2.N) (p : Fin 5000) (k : Fin 128) (i : S50000x128.Idx)
    (h0 : (i 0).val = t.val * 5000 + p.val) (h1 : (i 1).val = k.val) :
    (iblk2 V c 0 t : Vec Ideal S5000x128 .f32) (ix2 p k) = (V c main_v46 : S50000x128.Idx → EReal) i := by
  obtain ⟨e0, e1, -⟩ := idx2 t
  unfold iblk2
  rw [View.read_apply]
  show V c main_v46 _ = V c main_v46 _
  congr 1
  funext a
  apply Fin.ext
  match a with
  | ⟨0, _⟩ => show win2_0.index t (0 : Fin 2) * 5000 + 1 * p.val = (i 0).val; rw [e0, h0]; omega
  | ⟨1, _⟩ => show win2_0.index t (1 : Fin 2) * 128 + 1 * k.val = (i 1).val; rw [e1, h1]; omega

/-- The bias window's block at every point is its whole one-row array. -/
theorem iblk2_1_apply (c : Dev nD) (t : Fin cfg2.N) (u : Fin 1) (k : Fin 128) (i : S1x128.Idx)
    (h0 : (i 0).val = u.val) (h1 : (i 1).val = k.val) :
    (iblk2 V c 1 t : Vec Ideal S1x128 .f32) (ix2 u k) = (V c main_v47 : S1x128.Idx → EReal) i := by
  obtain ⟨-, -, e0, e1, -⟩ := idx2 t
  unfold iblk2
  rw [View.read_apply]
  show V c main_v47 _ = V c main_v47 _
  congr 1
  funext a
  apply Fin.ext
  match a with
  | ⟨0, _⟩ => show win2_1.index t (0 : Fin 2) * 1 + 1 * u.val = (i 0).val; rw [e0, h0]; omega
  | ⟨1, _⟩ => show win2_1.index t (1 : Fin 2) * 128 + 1 * k.val = (i 1).val; rw [e1, h1]; omega

/-- Weight window 2's block at every point is its whole array. -/
theorem iblk2_2_apply (c : Dev nD) (t : Fin cfg2.N) (k q : Fin 128) (i : S128x128.Idx)
    (h0 : (i 0).val = k.val) (h1 : (i 1).val = q.val) :
    (iblk2 V c 2 t : Vec Ideal S128x128 .f32) (ix2 k q) = (V c main_v48 : S128x128.Idx → EReal) i := by
  obtain ⟨-, -, -, -, e0, e1, -⟩ := idx2 t
  unfold iblk2
  rw [View.read_apply]
  show V c main_v48 _ = V c main_v48 _
  congr 1
  funext a
  apply Fin.ext
  match a with
  | ⟨0, _⟩ => show win2_2.index t (0 : Fin 2) * 128 + 1 * k.val = (i 0).val; rw [e0, h0]; omega
  | ⟨1, _⟩ => show win2_2.index t (1 : Fin 2) * 128 + 1 * q.val = (i 1).val; rw [e1, h1]; omega

/-- Weight window 3's block at every point is its whole array. -/
theorem iblk2_3_apply (c : Dev nD) (t : Fin cfg2.N) (k q : Fin 128) (i : S128x128.Idx)
    (h0 : (i 0).val = k.val) (h1 : (i 1).val = q.val) :
    (iblk2 V c 3 t : Vec Ideal S128x128 .f32) (ix2 k q) = (V c main_v49 : S128x128.Idx → EReal) i := by
  obtain ⟨-, -, -, -, -, -, e0, e1, -⟩ := idx2 t
  unfold iblk2
  rw [View.read_apply]
  show V c main_v49 _ = V c main_v49 _
  congr 1
  funext a
  apply Fin.ext
  match a with
  | ⟨0, _⟩ => show win2_3.index t (0 : Fin 2) * 128 + 1 * k.val = (i 0).val; rw [e0, h0]; omega
  | ⟨1, _⟩ => show win2_3.index t (1 : Fin 2) * 128 + 1 * q.val = (i 1).val; rw [e1, h1]; omega

/-- What point t writes back to the first output is block t of the biased, clamped product with the first weight array. -/
theorem flushed2a_eq (c : Dev nD) (t : Fin cfg2.N) :
    (dat2 (F := Ideal) V c).flushed 4 t
      = ((cfg2.win 4).blk t).view.read (Elt Ideal) (G2 (V c main_v46) (V c main_v47) (V c main_v48)) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz,
    View.ld_unit_zero (S := S128x128) hz]
  obtain ⟨-, -, -, -, -, -, -, -, e8, e9, e10, e11⟩ := idx2 t
  funext j
  obtain ⟨p, q, rfl⟩ : ∃ (p : Fin 5000) (q : Fin 128), j = ix2 p q := ⟨j 0, j 1, eq_ix2 j⟩
  show k2_pay2 (iblk2 V c 0 t) (iblk2 V c 1 t) (iblk2 V c 2 t) (ix2 p q)
    = prod2 (V c main_v46) (V c main_v47) (V c main_v48) ((((cfg2.win 4).blk t).view.emb (ix2 p q)) 0)
        ((((cfg2.win 4).blk t).view.emb (ix2 p q)) 1)
  refine (pay2a_apply (iblk2 V c 0 t) (iblk2 V c 1 t) (iblk2 V c 2 t) p q).trans ?_
  unfold prod2
  refine Finset.sum_congr rfl fun k _ => ?_
  have h0 : ((((cfg2.win 4).blk t).view.emb (ix2 p q)) 0).val = t.val * 5000 + p.val := by
    show win2_4.index t (0 : Fin 2) * 5000 + 1 * p.val = _; rw [e8]; omega
  have h1 : ((((cfg2.win 4).blk t).view.emb (ix2 p q)) 1).val = q.val := by
    show win2_4.index t (1 : Fin 2) * 128 + 1 * q.val = _; rw [e9]; omega
  rw [iblk2_0_apply V c t p k (ix2 ((((cfg2.win 4).blk t).view.emb (ix2 p q)) 0) k) h0 rfl,
    iblk2_1_apply V c t 0 k (ix2 (0 : Fin 1) k) rfl rfl,
    iblk2_2_apply V c t k q (ix2 k ((((cfg2.win 4).blk t).view.emb (ix2 p q)) 1)) rfl h1]

/-- An index of the first output array is in point t's block iff each coordinate is in the block's range on its axis. -/
theorem mem_blk2a (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v50_0).slice (win2_4.rect t)).set ↔ _
  rw [View.set_slice_whole, Rect.mem_set_unit]
  exact Iff.rfl

/-- Row r of the first output lies in the block of point r / 5000: the ten blocks tile the array. -/
theorem cover2a (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e8, e9, e10, e11⟩ := idx2 t
  refine ⟨t, flush2_4 t, ?_⟩
  rw [mem_blk2a]
  intro a
  match a with
  | ⟨0, _⟩ =>
    show win2_4.index t (0 : Fin 2) * 5000 ≤ (i 0).val ∧ (i 0).val < win2_4.index t (0 : Fin 2) * 5000 + 5000
    rw [e8, ht]; omega
  | ⟨1, _⟩ =>
    show win2_4.index t (1 : Fin 2) * 128 ≤ (i 1).val ∧ (i 1).val < win2_4.index t (1 : Fin 2) * 128 + 128
    rw [e9]; omega

/-- After region 2 its first output array is the biased, clamped product with the first weight array. -/
theorem final2a (c : Dev nD) :
    (dat2 (F := Ideal) V c).arrAt 4 cfg2.N = G2 (V c main_v46) (V c main_v47) (V c main_v48) :=
  (dat2 (F := Ideal) V c).arrAt_eq_of_cover 4 (G2 (V c main_v46) (V c main_v47) (V c main_v48))
    (fun t _ => flushed2a_eq V c t) cover2a

/-- What point t writes back to the second output is block t of the biased, clamped product with the second weight array. -/
theorem flushed2b_eq (c : Dev nD) (t : Fin cfg2.N) :
    (dat2 (F := Ideal) V c).flushed 5 t
      = ((cfg2.win 5).blk t).view.read (Elt Ideal) (G2 (V c main_v46) (V c main_v47) (V c main_v49)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz,
    View.ld_unit_zero (S := S128x128) hz]
  obtain ⟨-, -, -, -, -, -, -, -, e8, e9, e10, e11⟩ := idx2 t
  funext j
  obtain ⟨p, q, rfl⟩ : ∃ (p : Fin 5000) (q : Fin 128), j = ix2 p q := ⟨j 0, j 1, eq_ix2 j⟩
  show k2_pay3 (iblk2 V c 0 t) (iblk2 V c 1 t) (iblk2 V c 3 t) (ix2 p q)
    = prod2 (V c main_v46) (V c main_v47) (V c main_v49) ((((cfg2.win 5).blk t).view.emb (ix2 p q)) 0)
        ((((cfg2.win 5).blk t).view.emb (ix2 p q)) 1)
  refine (pay2b_apply (iblk2 V c 0 t) (iblk2 V c 1 t) (iblk2 V c 3 t) p q).trans ?_
  unfold prod2
  refine Finset.sum_congr rfl fun k _ => ?_
  have h0 : ((((cfg2.win 5).blk t).view.emb (ix2 p q)) 0).val = t.val * 5000 + p.val := by
    show win2_5.index t (0 : Fin 2) * 5000 + 1 * p.val = _; rw [e10]; omega
  have h1 : ((((cfg2.win 5).blk t).view.emb (ix2 p q)) 1).val = q.val := by
    show win2_5.index t (1 : Fin 2) * 128 + 1 * q.val = _; rw [e11]; omega
  rw [iblk2_0_apply V c t p k (ix2 ((((cfg2.win 5).blk t).view.emb (ix2 p q)) 0) k) h0 rfl,
    iblk2_1_apply V c t 0 k (ix2 (0 : Fin 1) k) rfl rfl,
    iblk2_3_apply V c t k q (ix2 k ((((cfg2.win 5).blk t).view.emb (ix2 p q)) 1)) rfl h1]

/-- An index of the second output array is in point t's block iff each coordinate is in the block's range on its axis. -/
theorem mem_blk2b (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v50_1).slice (win2_5.rect t)).set ↔ _
  rw [View.set_slice_whole, Rect.mem_set_unit]
  exact Iff.rfl

/-- Row r of the second output lies in the block of point r / 5000: the ten blocks tile the array. -/
theorem cover2b (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e8, e9, e10, e11⟩ := idx2 t
  refine ⟨t, flush2_5 t, ?_⟩
  rw [mem_blk2b]
  intro a
  match a with
  | ⟨0, _⟩ =>
    show win2_5.index t (0 : Fin 2) * 5000 ≤ (i 0).val ∧ (i 0).val < win2_5.index t (0 : Fin 2) * 5000 + 5000
    rw [e10, ht]; omega
  | ⟨1, _⟩ =>
    show win2_5.index t (1 : Fin 2) * 128 ≤ (i 1).val ∧ (i 1).val < win2_5.index t (1 : Fin 2) * 128 + 128
    rw [e11]; omega

/-- After region 2 its second output array is the biased, clamped product with the second weight array. -/
theorem final2b (c : Dev nD) :
    (dat2 (F := Ideal) V c).arrAt 5 cfg2.N = G2 (V c main_v46) (V c main_v47) (V c main_v49) :=
  (dat2 (F := Ideal) V c).arrAt_eq_of_cover 5 (G2 (V c main_v46) (V c main_v47) (V c main_v49))
    (fun t _ => flushed2b_eq V c t) cover2b

end

/-- Region 2's first output, entry by entry: ∑ₖ max (A(p, k) + b(0, k)) 0 · Wa(k, q). -/
theorem tile2a {V : (c : Dev nD) → (b : Ref sig .tc) → Buf (Elt Ideal) ((c : Thread nD τ).loc b)}
    (c : Dev nD) (A : S50000x128.Idx → EReal) (b : S1x128.Idx → EReal) (Wa : S128x128.Idx → EReal)
    (hA : V c main_v46 = A) (hb : V c main_v47 = b) (hW : V c main_v48 = Wa) (p : Fin 50000) (q : Fin 128) :
    (dat2 (F := Ideal) V c).arrAt 4 cfg2.N (ix2 p q)
      = ∑ k : Fin 128, max (A (ix2 p k) + b (ix2 (0 : Fin 1) k)) 0 * Wa (ix2 k q) := by
  rw [final2a V c, hA, hb, hW]
  rfl

/-- Region 2's second output, entry by entry: ∑ₖ max (A(p, k) + b(0, k)) 0 · Wb(k, q). -/
theorem tile2b {V : (c : Dev nD) → (b : Ref sig .tc) → Buf (Elt Ideal) ((c : Thread nD τ).loc b)}
    (c : Dev nD) (A : S50000x128.Idx → EReal) (b : S1x128.Idx → EReal) (Wb : S128x128.Idx → EReal)
    (hA : V c main_v46 = A) (hb : V c main_v47 = b) (hW : V c main_v49 = Wb) (p : Fin 50000) (q : Fin 128) :
    (dat2 (F := Ideal) V c).arrAt 5 cfg2.N (ix2 p q)
      = ∑ k : Fin 128, max (A (ix2 p k) + b (ix2 (0 : Fin 1) k)) 0 * Wb (ix2 k q) := by
  rw [final2b V c, hA, hb, hW]
  rfl

end Cert.KernelIdeal.Tiles

end
-- ==== Proof.Tile3.lean ====
/-
  Region 3, row by row. The region walks 125 blocks of 6400 rows; at block t it adds a bias row to rows
  6400 t … 6400 t + 6399 of an 800000×128 array, clamps the sums below at zero, weights each row by a row vector and
  sums it, adds a scalar and takes the logistic, writing the same rows of its one-column output. Every row lies in
  exactly the block t = row / 6400, so after the region the output at row e is
  logistic (∑ₖ max (S(e, k) + b(k)) 0 · w(k) + β), whatever the arrays held when the region was entered.
-/
import proofs.«120741_j12326556139999_2_alg».proof.Proof.Gen.KernelIdeal.Frame
import proofs.«120741_j12326556139999_2_alg».proof.Proof.TileBase
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-- Row e's score: the logistic of the biased, clamped row weighted by w and summed, plus the scalar. -/
def score3 (S : S800000x128.Idx → EReal) (b w : S1x128.Idx → EReal) (bb : S1x1.Idx → EReal) (e : Fin 800000) : EReal :=
  Ideal.logistic ((∑ k : Fin 128, max (S (ix2 e k) + b (ix2 (0 : Fin 1) k)) 0 * w (ix2 (0 : Fin 1) k))
    + bb (ix2 (0 : Fin 1) (0 : Fin 1)))

/-- The scores as one function of the column's index. -/
abbrev G3 (S : S800000x128.Idx → EReal) (b w : S1x128.Idx → EReal) (bb : S1x1.Idx → EReal) :
    S800000x1.Idx → Elt Ideal .f32 :=
  fun i => score3 S b w bb (i 0)

section
variable (V : (c : Dev nD) → (b : Ref sig .tc) → Buf (Elt Ideal) ((c : Thread nD τ).loc b))

/-- The buffers of region 3's five windows. -/
theorem arr3_0 : Pipeline.arrRef spec3 0 = main_v65 := rfl
theorem arr3_1 : Pipeline.arrRef spec3 1 = main_v66 := rfl
theorem arr3_2 : Pipeline.arrRef spec3 2 = main_v67 := rfl
theorem arr3_3 : Pipeline.arrRef spec3 3 = main_v68 := rfl
theorem arr3_4 : Pipeline.arrRef spec3 4 = main_v69 := rfl

/-- Region 3's index maps over its 125 points: the row-block windows sit at block row t, the two row vectors and the
    scalar at their one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The left window's block at point t is rows 6400 t … 6400 t + 6399 of its array. -/
theorem iblk3_0_apply (c : Dev nD) (t : Fin cfg3.N) (p : Fin 6400) (k : Fin 128) (i : S800000x128.Idx)
    (h0 : (i 0).val = t.val * 6400 + p.val) (h1 : (i 1).val = k.val) :
    (iblk3 V c 0 t : Vec Ideal S6400x128 .f32) (ix2 p k) = (V c main_v65 : S800000x128.Idx → EReal) i := by
  obtain ⟨e0, e1, -⟩ := idx3 t
  unfold iblk3
  rw [View.read_apply]
  show V c main_v65 _ = V c main_v65 _
  congr 1
  funext a
  apply Fin.ext
  match a with
  | ⟨0, _⟩ => show win3_0.index t (0 : Fin 2) * 6400 + 1 * p.val = (i 0).val; rw [e0, h0]; omega
  | ⟨1, _⟩ => show win3_0.index t (1 : Fin 2) * 128 + 1 * k.val = (i 1).val; rw [e1, h1]; omega

/-- The bias window's block at every point is its whole one-row array. -/
theorem iblk3_1_apply (c : Dev nD) (t : Fin cfg3.N) (u : Fin 1) (k : Fin 128) (i : S1x128.Idx)
    (h0 : (i 0).val = u.val) (h1 : (i 1).val = k.val) :
    (iblk3 V c 1 t : Vec Ideal S1x128 .f32) (ix2 u k) = (V c main_v66 : S1x128.Idx → EReal) i := by
  obtain ⟨-, -, e0, e1, -⟩ := idx3 t
  unfold iblk3
  rw [View.read_apply]
  show V c main_v66 _ = V c main_v66 _
  congr 1
  funext a
  apply Fin.ext
  match a with
  | ⟨0, _⟩ => show win3_1.index t (0 : Fin 2) * 1 + 1 * u.val = (i 0).val; rw [e0, h0]; omega
  | ⟨1, _⟩ => show win3_1.index t (1 : Fin 2) * 128 + 1 * k.val = (i 1).val; rw [e1, h1]; omega

/-- The weight window's block at every point is its whole one-row array. -/
theorem iblk3_2_apply (c : Dev nD) (t : Fin cfg3.N) (u : Fin 1) (k : Fin 128) (i : S1x128.Idx)
    (h0 : (i 0).val = u.val) (h1 : (i 1).val = k.val) :
    (iblk3 V c 2 t : Vec Ideal S1x128 .f32) (ix2 u k) = (V c main_v67 : S1x128.Idx → EReal) i := by
  obtain ⟨-, -, -, -, e0, e1, -⟩ := idx3 t
  unfold iblk3
  rw [View.read_apply]
  show V c main_v67 _ = V c main_v67 _
  congr 1
  funext a
  apply Fin.ext
  match a with
  | ⟨0, _⟩ => show win3_2.index t (0 : Fin 2) * 1 + 1 * u.val = (i 0).val; rw [e0, h0]; omega
  | ⟨1, _⟩ => show win3_2.index t (1 : Fin 2) * 128 + 1 * k.val = (i 1).val; rw [e1, h1]; omega

/-- The scalar window's block at every point is its whole one-entry array. -/
theorem iblk3_3_apply (c : Dev nD) (t : Fin cfg3.N) (u v : Fin 1) (i : S1x1.Idx)
    (h0 : (i 0).val = u.val) (h1 : (i 1).val = v.val) :
    (iblk3 V c 3 t : Vec Ideal S1x1 .f32) (ix2 u v) = (V c main_v68 : S1x1.Idx → EReal) i := by
  obtain ⟨-, -, -, -, -, -, e0, e1, -⟩ := idx3 t
  unfold iblk3
  rw [View.read_apply]
  show V c main_v68 _ = V c main_v68 _
  congr 1
  funext a
  apply Fin.ext
  match a with
  | ⟨0, _⟩ => show win3_3.index t (0 : Fin 2) * 1 + 1 * u.val = (i 0).val; rw [e0, h0]; omega
  | ⟨1, _⟩ => show win3_3.index t (1 : Fin 2) * 1 + 1 * v.val = (i 1).val; rw [e1, h1]; omega

/-- What point t writes back is block t of the scores of the arrays as the region finds them. -/
theorem flushed3_eq (c : Dev nD) (t : Fin cfg3.N) :
    (dat3 (F := Ideal) V c).flushed 4 t
      = ((cfg3.win 4).blk t).view.read (Elt Ideal)
          (G3 (V c main_v65) (V c main_v66) (V c main_v67) (V c main_v68)) := by
  show (cfg3.win 4).cut (grid3.coords t) ((dat3 V c).after 4 t) = _
  rw [after3_4]
  unfold out3_4
  rw [View.canon_unit_zero hz]
  simp only [View.ld_unit_zero (S := S6400x128) hz, View.ld_unit_zero (S := S1x128) hz,
    View.ld_unit_zero (S := S1x1) hz]
  obtain ⟨-, -, -, -, -, -, -, -, e8, e9⟩ := idx3 t
  funext j
  obtain ⟨p, u, rfl⟩ : ∃ (p : Fin 6400) (u : Fin 1), j = ix2 p u := ⟨j 0, j 1, eq_ix2 j⟩
  obtain rfl : u = 0 := Subsingleton.elim _ _
  show k3_pay1 (iblk3 V c 0 t) (iblk3 V c 1 t) (iblk3 V c 2 t) (iblk3 V c 3 t) (ix2 p (0 : Fin 1))
    = score3 (V c main_v65) (V c main_v66) (V c main_v67) (V c main_v68)
        ((((cfg3.win 4).blk t).view.emb (ix2 p (0 : Fin 1))) 0)
  refine (pay3_apply (iblk3 V c 0 t) (iblk3 V c 1 t) (iblk3 V c 2 t) (iblk3 V c 3 t) p).trans ?_
  unfold score3
  have h0 : ((((cfg3.win 4).blk t).view.emb (ix2 p (0 : Fin 1))) 0).val = t.val * 6400 + p.val := by
    show win3_4.index t (0 : Fin 2) * 6400 + 1 * p.val = _; rw [e8]; omega
  rw [iblk3_3_apply V c t 0 0 (ix2 (0 : Fin 1) (0 : Fin 1)) rfl rfl]
  refine congrArg (fun s => Ideal.logistic (s + (V c main_v68 : S1x1.Idx → EReal) (ix2 (0 : Fin 1) (0 : Fin 1)))) ?_
  refine Finset.sum_congr rfl fun k _ => ?_
  rw [iblk3_0_apply V c t p k (ix2 ((((cfg3.win 4).blk t).view.emb (ix2 p (0 : Fin 1))) 0) k) h0 rfl,
    iblk3_1_apply V c t 0 k (ix2 (0 : Fin 1) k) rfl rfl,
    iblk3_2_apply V c t 0 k (ix2 (0 : Fin 1) k) rfl rfl]

/-- An index of the output column is in point t's block iff each coordinate is in the block's range on its axis. -/
theorem mem_blk3 (t : Fin cfg3.N) (i : S800000x1.Idx) :
    i ∈ ((cfg3.win 4).blk t).view.set ↔ ∀ a : Fin 2, win3_4.index t a * S6400x1.size a ≤ (i a).val
      ∧ (i a).val < win3_4.index t a * S6400x1.size a + S6400x1.size a := by
  show i ∈ ((View.whole main_v69).slice (win3_4.rect t)).set ↔ _
  rw [View.set_slice_whole, Rect.mem_set_unit]
  exact Iff.rfl

/-- Row r of the output lies in the block of point r / 6400: the 125 blocks tile the column. -/
theorem cover3 (i : S800000x1.Idx) :
    ∃ t : Fin cfg3.N, (cfg3.win 4).flush t = true ∧ i ∈ ((cfg3.win 4).blk t).view.set := by
  have hi0 : (i 0).val < 800000 := (i 0).isLt
  have hi1 : (i 1).val < 1 := (i 1).isLt
  have hN : cfg3.N = 125 := N_3
  obtain ⟨t, ht⟩ : ∃ t : Fin cfg3.N, t.val = (i 0).val / 6400 := ⟨⟨(i 0).val / 6400, by rw [hN]; omega⟩, rfl⟩
  obtain ⟨-, -, -, -, -, -, -, -, e8, e9⟩ := idx3 t
  refine ⟨t, flush3_4 t, ?_⟩
  rw [mem_blk3]
  intro a
  match a with
  | ⟨0, _⟩ =>
    show win3_4.index t (0 : Fin 2) * 6400 ≤ (i 0).val ∧ (i 0).val < win3_4.index t (0 : Fin 2) * 6400 + 6400
    rw [e8, ht]; omega
  | ⟨1, _⟩ =>
    show win3_4.index t (1 : Fin 2) * 1 ≤ (i 1).val ∧ (i 1).val < win3_4.index t (1 : Fin 2) * 1 + 1
    rw [e9]; omega

/-- After region 3 its output column holds the scores of the arrays it read. -/
theorem final3 (c : Dev nD) :
    (dat3 (F := Ideal) V c).arrAt 4 cfg3.N = G3 (V c main_v65) (V c main_v66) (V c main_v67) (V c main_v68) :=
  (dat3 (F := Ideal) V c).arrAt_eq_of_cover 4 (G3 (V c main_v65) (V c main_v66) (V c main_v67) (V c main_v68))
    (fun t _ => flushed3_eq V c t) cover3

end

/-- Region 3, row by row: with S, b, w and β the arrays it finds, its output at row e is
    logistic (∑ₖ max (S(e, k) + b(0, k)) 0 · w(0, k) + β(0, 0)). -/
theorem tile3 {V : (c : Dev nD) → (b : Ref sig .tc) → Buf (Elt Ideal) ((c : Thread nD τ).loc b)}
    (c : Dev nD) (S : S800000x128.Idx → EReal) (b w : S1x128.Idx → EReal) (bb : S1x1.Idx → EReal)
    (hS : V c main_v65 = S) (hb : V c main_v66 = b) (hw : V c main_v67 = w) (hbb : V c main_v68 = bb)
    (e : Fin 800000) :
    (dat3 (F := Ideal) V c).arrAt 4 cfg3.N (ix2 e (0 : Fin 1))
      = Ideal.logistic ((∑ k : Fin 128, max (S (ix2 e k) + b (ix2 (0 : Fin 1) k)) 0 * w (ix2 (0 : Fin 1) k))
          + bb (ix2 (0 : Fin 1) (0 : Fin 1))) := by
  rw [final3 V c, hS, hb, hw, hbb]
  rfl

end Cert.KernelIdeal.Tiles

end
-- ==== Proof.Tiles.lean ====
/-
  What each of the kernel's four regions leaves in its output arrays, entry by entry, as a function of the arrays
  the region finds: the product (region 0), the biased, clamped products (regions 1 and 2) and the row scores
  (region 3), gathered for one import.
-/
import proofs.«120741_j12326556139999_2_alg».proof.Proof.Tile0
import proofs.«120741_j12326556139999_2_alg».proof.Proof.Tile1
import proofs.«120741_j12326556139999_2_alg».proof.Proof.Tile2
import proofs.«120741_j12326556139999_2_alg».proof.Proof.Tile3
-- ==== Proof.KernelValue.lean ====
/-
  THE KERNEL'S RESULT, EDGE BY EDGE, IS THE SPECIFICATION'S `kernelOut`.

  The fold of the eleven segments is read from the launch memory to the result buffer: the first tile leaves the dense
  product x · W1; the host aggregates it in the scaled arrangement; the second tile adds the bias, rectifies and
  multiplies by W2; the host aggregates again; the third tile projects the rectified second layer with the upper and
  the lower half of the classifier's first matrix; the host gathers the two projections at each edge's two ends and
  adds them; the fourth tile adds the bias, rectifies, contracts with the last weight column, adds the last bias and
  applies the logistic function; the last host operation reads the result column as a vector.
-/
import proofs.«120741_j12326556139999_2_alg».proof.Proof.KernelKeep
import proofs.«120741_j12326556139999_2_alg».proof.Proof.KernelHostRead
import proofs.«120741_j12326556139999_2_alg».proof.Proof.Tiles

noncomputable section

open scoped BigOperators

namespace Cert.KernelIdeal.HostChain

open Cert.KernelIdeal Cert.KernelIdeal.Gen Cert.KernelIdeal.Tiles Idealize.ShloMosaic Idealize.ShloMosaic.TcCoe Idealize.SL.Sem
open Idealize.ShloMosaic.ValueIdx Cert.Lib Cert.Gnn

/-- A matrix from its entries. -/
def arr2 {a b : ℕ} (f : Fin a → Fin b → EReal) : (⟨2, ![a, b]⟩ : Shape).Idx → EReal := fun j => f (j 0) (j 1)
theorem arr2_apply {a b : ℕ} (f : Fin a → Fin b → EReal) (p : Fin a) (q : Fin b) : arr2 f (ix2 p q) = f p q := rfl
theorem eq_arr2 {a b : ℕ} (X : (⟨2, ![a, b]⟩ : Shape).Idx → EReal) (f : Fin a → Fin b → EReal)
    (h : ∀ p q, X (ix2 p q) = f p q) : X = arr2 f := by
  funext j; rw [eq_ix2 j]; exact h _ _

variable (m : (ℓ : Loc nD τ sig) → Buf (Elt Ideal) ℓ) (ρ : Dev nD → PrngReg) (c : Dev nD)
variable (x0 : FVec Ideal S50000x128 .f32) (x1 : IVec S2x800000 32) (x2 : FVec Ideal S128x128 .f32) (x3 : FVec Ideal S128 .f32)
  (x4 : FVec Ideal S128x128 .f32) (x5 : FVec Ideal S128 .f32) (x6 : FVec Ideal S256x128 .f32) (x7 : FVec Ideal S128 .f32)
  (x8 : FVec Ideal S128x1 .f32) (x9 : FVec Ideal S1 .f32)
variable (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (e4 : m ((c : Thread nD τ).loc main_arg4) = x4) (e5 : m ((c : Thread nD τ).loc main_arg5) = x5)
  (e6 : m ((c : Thread nD τ).loc main_arg6) = x6) (e7 : m ((c : Thread nD τ).loc main_arg7) = x7)
  (e8 : m ((c : Thread nD τ).loc main_arg8) = x8) (e9 : m ((c : Thread nD τ).loc main_arg9) = x9)

/-- The specification's index words and normalizer, read off the edge array. -/
abbrev sRowF : Fin 850000 → BitVec 32 := fun j => rowF x1 (ix1 j)
abbrev sColF : Fin 850000 → BitVec 32 := fun j => colF x1 (ix1 j)
abbrev sRowE : Fin 800000 → BitVec 32 := fun e => rowE x1 (ix1 e)
abbrev sColE : Fin 800000 → BitVec 32 := fun e => colE x1 (ix1 e)
abbrev sD : Fin 50000 → EReal := fun p => dinv x1 (ix1 p)
abbrev sX : Fin 50000 → Fin 128 → EReal := fun p k => x0 (ix2 p k)
abbrev sW1 : Fin 128 → Fin 128 → EReal := fun k q => x2 (ix2 k q)
abbrev sB1 : Fin 128 → EReal := fun k => x3 (ix1 k)
abbrev sW2 : Fin 128 → Fin 128 → EReal := fun k q => x4 (ix2 k q)
abbrev sB2 : Fin 128 → EReal := fun k => x5 (ix1 k)
abbrev sWe1 : Fin (128 + 128) → Fin 128 → EReal := fun k q => x6 (ix2 k q)
abbrev sBe1 : Fin 128 → EReal := fun k => x7 (ix1 k)
abbrev sWe2 : Fin 128 → EReal := fun k => x8 (ix2 k (0 : Fin 1))

theorem hN : 0 < 50000 := by decide

include e0 e2 in
/-- After the first tile: the dense product. -/
theorem at4_v16 : W4 (F := Ideal) m ρ c (Proc.devRef .tc main_v16) = arr2 (dense (sX x0) (sW1 x2)) :=
  (W4_arr m ρ c 2).trans (eq_arr2 _ _ fun p q =>
    tile0 (V := V3 m ρ) c x0 x2 (at3_arg0 m ρ c x0 e0) (at3_arg2 m ρ c x2 e2) p q)

/-- The host's layer around a matrix given by its entries is the scaled aggregation, as a matrix. -/
theorem layerHost_arr2 (f : Fin 50000 → Fin 128 → EReal) :
    layerHost (arr2 f) (dinvCol x1) (rowF x1) (colF x1) = arr2 (aggScaled hN (sRowF x1) (sColF x1) (sD x1) f) :=
  eq_arr2 _ _ fun p q => by
    rw [layerHost_apply]
    have hd : (fun p : Fin 50000 => dinvCol x1 (ix2 p (0 : Fin 1))) = sD x1 := funext (dinvCol_apply x1)
    rw [hd]
    rfl

include e0 e1 e2 in
/-- The first aggregate. -/
theorem at5_v30 : W5 (F := Ideal) m ρ c (Proc.devRef .tc main_v30)
    = arr2 (aggScaled hN (sRowF x1) (sColF x1) (sD x1) (dense (sX x0) (sW1 x2))) :=
  (ops1_v30 (W4 (F := Ideal) m ρ c) _ _ _ _ (at4_v16 m ρ c x0 x2 e0 e2) (at4_v15 m ρ c x1 e1) (at4_v5 m ρ c x1 e1)
    (at4_v6 m ρ c x1 e1)).trans (layerHost_arr2 x1 _)

include e3 in
theorem at5_v31 : W5 (F := Ideal) m ρ c (Proc.devRef .tc main_v31) = shapeCast S1x128 x3 shapeCasts_S128_S1x128 :=
  ops1_v31 (W4 (F := Ideal) m ρ c) x3 (at4_arg3 m ρ c x3 e3)

include e0 e1 e2 e3 e4 in
/-- After the second tile. -/
theorem at6_v32 : W6 (F := Ideal) m ρ c (Proc.devRef .tc main_v32)
    = arr2 (reluDense (aggScaled hN (sRowF x1) (sColF x1) (sD x1) (dense (sX x0) (sW1 x2))) (sB1 x3) (sW2 x4)) :=
  (W6_arr m ρ c 3).trans (eq_arr2 _ _ fun p q => by
    rw [tile1 (V := V5 m ρ) c _ _ x4 (at5_v30 m ρ c x0 x1 x2 e0 e1 e2) (at5_v31 m ρ c x3 e3) (at5_arg4 m ρ c x4 e4) p q]
    unfold reluDense
    refine Finset.sum_congr rfl fun k _ => ?_
    rw [arr2_apply, biasRow_apply])

include e0 e1 e2 e3 e4 in
/-- The second aggregate. -/
theorem at7_v46 : W7 (F := Ideal) m ρ c (Proc.devRef .tc main_v46)
    = arr2 (agg2Scaled hN (sRowF x1) (sColF x1) (sD x1) (sX x0) (sW1 x2) (sB1 x3) (sW2 x4)) :=
  (ops2_v46 (W6 (F := Ideal) m ρ c) _ _ _ _ (at6_v32 m ρ c x0 x1 x2 x3 x4 e0 e1 e2 e3 e4) (at6_v15 m ρ c x1 e1)
    (at6_v5 m ρ c x1 e1) (at6_v6 m ρ c x1 e1)).trans (layerHost_arr2 x1 _)

include e5 in
theorem at7_v47 : W7 (F := Ideal) m ρ c (Proc.devRef .tc main_v47) = shapeCast S1x128 x5 shapeCasts_S128_S1x128 :=
  ops2_v47 (W6 (F := Ideal) m ρ c) x5 (at6_arg5 m ρ c x5 e5)
include e6 in
theorem at7_v48 : W7 (F := Ideal) m ρ c (Proc.devRef .tc main_v48)
    = extractStridedSlice S128x128 ![0, 0] x6 slices_S256x128_S128x128_0_0 :=
  ops2_v48 (W6 (F := Ideal) m ρ c) x6 (at6_arg6 m ρ c x6 e6)
include e6 in
theorem at7_v49 : W7 (F := Ideal) m ρ c (Proc.devRef .tc main_v49)
    = extractStridedSlice S128x128 ![128, 0] x6 slices_S256x128_S128x128_128_0 :=
  ops2_v49 (W6 (F := Ideal) m ρ c) x6 (at6_arg6 m ρ c x6 e6)

include e0 e1 e2 e3 e4 e5 e6 in
/-- After the third tile: the projection with the upper half. -/
theorem at8_v50_0 : W8 (F := Ideal) m ρ c (Proc.devRef .tc main_v50_0)
    = arr2 (reluDense (agg2Scaled hN (sRowF x1) (sColF x1) (sD x1) (sX x0) (sW1 x2) (sB1 x3) (sW2 x4)) (sB2 x5)
        (fun k q => sWe1 x6 (Fin.castAdd 128 k) q)) :=
  (W8_arr m ρ c 4).trans (eq_arr2 _ _ fun p q => by
    rw [tile2a (V := V7 m ρ) c _ _ _ (at7_v46 m ρ c x0 x1 x2 x3 x4 e0 e1 e2 e3 e4) (at7_v47 m ρ c x5 e5) (at7_v48 m ρ c x6 e6) p q]
    unfold reluDense
    refine Finset.sum_congr rfl fun k _ => ?_
    rw [arr2_apply, biasRow_apply, upper_apply])

include e0 e1 e2 e3 e4 e5 e6 in
/-- After the third tile: the projection with the lower half. -/
theorem at8_v50_1 : W8 (F := Ideal) m ρ c (Proc.devRef .tc main_v50_1)
    = arr2 (reluDense (agg2Scaled hN (sRowF x1) (sColF x1) (sD x1) (sX x0) (sW1 x2) (sB1 x3) (sW2 x4)) (sB2 x5)
        (fun k q => sWe1 x6 (Fin.natAdd 128 k) q)) :=
  (W8_arr m ρ c 5).trans (eq_arr2 _ _ fun p q => by
    rw [tile2b (V := V7 m ρ) c _ _ _ (at7_v46 m ρ c x0 x1 x2 x3 x4 e0 e1 e2 e3 e4) (at7_v47 m ρ c x5 e5) (at7_v49 m ρ c x6 e6) p q]
    unfold reluDense
    refine Finset.sum_congr rfl fun k _ => ?_
    rw [arr2_apply, biasRow_apply, lower_apply])

include e0 e1 e2 e3 e4 e5 e6 in
/-- The edge stage's input at (e, q): the specification's projected scores. -/
theorem at9_v65 (e : Fin 800000) (q : Fin 128) : W9 (F := Ideal) m ρ c (Proc.devRef .tc main_v65) (ix2 e q)
    = scoreProjected hN (sRowE x1) (sColE x1) (sB2 x5) (sWe1 x6)
        (agg2Scaled hN (sRowF x1) (sColF x1) (sD x1) (sX x0) (sW1 x2) (sB1 x3) (sW2 x4)) e q := by
  have h : W9 (F := Ideal) m ρ c (Proc.devRef .tc main_v65) = edgeSum _ _ (rowE x1) (colE x1) :=
    ops3_v65 (W8 (F := Ideal) m ρ c) _ _ _ _ (at8_v50_0 m ρ c x0 x1 x2 x3 x4 x5 x6 e0 e1 e2 e3 e4 e5 e6)
      (at8_v50_1 m ρ c x0 x1 x2 x3 x4 x5 x6 e0 e1 e2 e3 e4 e5 e6) (at8_v1 m ρ c x1 e1) (at8_v3 m ρ c x1 e1)
  rw [h, edgeSum_apply]
  rfl

include e7 in
theorem at9_v66 : W9 (F := Ideal) m ρ c (Proc.devRef .tc main_v66) = shapeCast S1x128 x7 shapeCasts_S128_S1x128 :=
  ops3_v66 (W8 (F := Ideal) m ρ c) x7 (at8_arg7 m ρ c x7 e7)
include e8 in
theorem at9_v67 : W9 (F := Ideal) m ρ c (Proc.devRef .tc main_v67) = transpose S1x128 [1, 0] x8 transposes_S128x1_S1x128_1_0 :=
  ops3_v67 (W8 (F := Ideal) m ρ c) x8 (at8_arg8 m ρ c x8 e8)
include e9 in
theorem at9_v68 : W9 (F := Ideal) m ρ c (Proc.devRef .tc main_v68) = shapeCast S1x1 x9 shapeCasts_S1_S1x1 :=
  ops3_v68 (W8 (F := Ideal) m ρ c) x9 (at8_arg9 m ρ c x9 e9)

include e0 e1 e2 e3 e4 e5 e6 e7 e8 e9 in
/-- THE KERNEL'S RESULT AT EDGE `e`. -/
theorem kernel_entry (e : Fin 800000) : W11 (F := Ideal) m ρ c (Proc.devRef .tc main_v70) (ix1 e)
    = kernelOut hN (sRowF x1) (sColF x1) (sRowE x1) (sColE x1) (sD x1) (sX x0) (sW1 x2) (sB1 x3) (sW2 x4) (sB2 x5) (sWe1 x6)
        (sBe1 x7) (sWe2 x8) (x9 (ix1 (0 : Fin 1))) e := by
  have h : W11 (F := Ideal) m ρ c (Proc.devRef .tc main_v70)
      = shapeCast S800000 ((dat3 (F := Ideal) (V9 m ρ) c).arrAt 4 cfg3.N) shapeCasts_S800000x1_S800000 :=
    ops4_v70 (W10 (F := Ideal) m ρ c) _ (W10_arr m ρ c 4)
  rw [h, outVec_apply,
    tile3 (V := V9 m ρ) c (W9 (F := Ideal) m ρ c (Proc.devRef .tc main_v65)) _ _ _ rfl (at9_v66 m ρ c x7 e7) (at9_v67 m ρ c x8 e8)
      (at9_v68 m ρ c x9 e9) e]
  unfold kernelOut
  rw [bias11_apply]
  refine congrArg (fun s => Ideal.logistic (s + x9 (ix1 (0 : Fin 1)))) (Finset.sum_congr rfl fun k _ => ?_)
  rw [at9_v65 m ρ c x0 x1 x2 x3 x4 x5 x6 e0 e1 e2 e3 e4 e5 e6 e k, biasRow_apply, weightRow_apply]

end Cert.KernelIdeal.HostChain

end
-- ==== Proof.RefLayer.lean ====
/-
  ONE GRAPH-CONVOLUTION AGGREGATE OF THE REFERENCE, READ AT AN ENTRY, generic in the extents.

  The reference builds an aggregate in four strokes: it gathers the rows of a feature array `h` at a column of
  source indices (each index word first counted from the end when negative, and clamped by the gather), multiplies
  every gathered row by one number per message, scatters the products into an all-zero array at a column of target
  indices (a message whose target word is no row is dropped), and so leaves at entry `(p, q)` the sum, over the
  messages `j` sent to row `p`, of `h[src j, q]` times the message's number. When that number is the product of a
  normalizer at the message's two (wrapped and clamped) ends, this is the specification's `aggNormed`.
  The lemma is stated over VARIABLES for the index columns, the factor array and the zero array, each described by
  what it reads at an index; a program's stages are then fed to it by their own reading lemmas.
-/
import proofs.«120741_j12326556139999_2_alg».proof.Proof.GnnSpec

noncomputable section

open scoped BigOperators
open Idealize.ShloMosaic Idealize.ShloMosaic.ValueIdx Cert.Lib

namespace Cert.ReferenceIdeal.RefValue

variable {N M D : Nat}

/-- THE AGGREGATE AT `(p, q)`: rows of `h` gathered at `idxSrc`, times `nrm`, scattered into `zeros` at `idxCol`. -/
theorem layer_apply (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (h zeros : FVec Ideal ⟨2, ![N, D]⟩ .f32) (idxSrc idxCol : IVec ⟨2, ![M, 1]⟩ 32) (nrm : FVec Ideal ⟨2, ![M, D]⟩ .f32)
    (rowF colF : Fin M → BitVec 32) (d : Fin N → EReal)
    (hz : ∀ p q, zeros (ix2 p q) = 0)
    (hsrc : ∀ j, idxSrc (ix2 j 0) = wrapRow (BitVec.ofNat 32 N) (rowF j))
    (hcol : ∀ j, idxCol (ix2 j 0) = colF j)
    (hnrm : ∀ j q, nrm (ix2 j q) = d (Cert.Gnn.srcRow hN (rowF j)) * d (Cert.Gnn.srcRow hN (colF j)))
    (p : Fin N) (q : Fin D) :
    Host.scatterAdd (F := Ideal) (rowScatter N M D wfs) zeros idxCol
        (mulf (Host.gather (rowGather N M D wfg) h idxSrc) nrm) (ix2 p q)
      = Cert.Gnn.aggNormed hN rowF colF d (fun p q => h (ix2 p q)) p q := by
  rw [rowScatterAdd_apply wfs, hz, zero_add]
  unfold Cert.Gnn.aggNormed
  refine Finset.sum_congr (Finset.filter_congr fun j _ => by rw [hcol]) fun j _ => ?_
  rw [mulf_apply, rowGather_apply hN wfg, hsrc, hnrm]
  rfl

end Cert.ReferenceIdeal.RefValue

end
-- ==== Proof.RefValue.lean ====
/-
  THE REFERENCE, ONE STAGE AT A TIME, IS THE SPECIFICATION.

  The reference recomputes the messages' source and target words and the symmetric normalizer for its second layer,
  and slices the edges' end words once more for the edge stage; the copies are the same functions of the edge list,
  so ONE source vector, ONE target vector and ONE normalizer appear below. An index vector is normalized entry by
  entry (a negative word counts from the end), the normalizer is gathered at the normalized source and target words
  and the two are multiplied, the product is spread along the feature axis, and the aggregate of a feature array `h`
  is the scatter of the gathered and scaled rows: at `(p, q)` the specification's `aggNormed`. The first layer
  aggregates the features times the first weight matrix; bias and rectifier give the hidden features, whose product
  with the second weight matrix the second layer aggregates (`agg2Normed`); bias and rectifier again give the node
  embeddings. The edge stage gathers the embeddings at an edge's two ends, lays them side by side and contracts the
  256 entries with the first classifier matrix — the sum over the first 128 positions plus the sum over the last
  128, which is `scoreConcat` —, adds a bias, rectifies, contracts with the second classifier vector, adds the last
  bias and applies `1 / (1 + e^(-x))`: the specification's `refOut`. Last, the normalizer `where(deg > 0,
  rsqrt(deg), 0)` is a real number ≥ 0 at every node, whatever the degrees are.
-/
import proofs.«120741_j12326556139999_2_alg».proof.Proof.RefRead
import proofs.«120741_j12326556139999_2_alg».proof.Proof.RefLayer

noncomputable section

open scoped BigOperators
open Cert.ReferenceIdeal Cert.ReferenceIdeal.Gen Idealize.ShloMosaic Idealize.ShloMosaic.ValueIdx Cert.Lib

namespace Cert.ReferenceIdeal.RefValue

/-- There is a node. -/
theorem hN : 0 < 50000 := by decide

/-! ## The program's dimension records are the built ones -/

theorem gatherVec_rec : gather_S50000_S850000x1_S850000_n_0_n_n_0_1_1
    = vecGather 50000 850000 gather_S50000_S850000x1_S850000_n_0_n_n_0_1_1_wf := rfl

theorem gatherRowsM_rec : gather_S50000x128_S850000x1_S850000x128_1_0_n_n_0_1_1128
    = rowGather 50000 850000 128 gather_S50000x128_S850000x1_S850000x128_1_0_n_n_0_1_1128_wf := rfl

theorem scatterRowsM_rec : scatter_S50000x128_S850000x1_S850000x128_1_0_0_1
    = rowScatter 50000 850000 128 scatter_S50000x128_S850000x1_S850000x128_1_0_0_1_wf := rfl

theorem gatherRowsE_rec : gather_S50000x128_S800000x1_S800000x128_1_0_n_n_0_1_1128
    = rowGather 50000 800000 128 gather_S50000x128_S800000x1_S800000x128_1_0_n_n_0_1_1128_wf := rfl

/-! ## The repeated stages are the first ones -/

section
variable (x1 : (⟨S2x800000, .i32⟩ : BufTy).Contents (Elt Ideal))

theorem v54_eq : ReadP.val_main_v54 (F := Ideal) x1 = ReadP.val_main_v6 (F := Ideal) x1 := rfl
theorem v55_eq : ReadP.val_main_v55 (F := Ideal) x1 = ReadP.val_main_v7 (F := Ideal) x1 := rfl
theorem v63_eq : ReadP.val_main_v63 (F := Ideal) x1 = ReadP.val_main_v15 (F := Ideal) x1 := rfl
theorem v97_eq : ReadP.val_main_v97 (F := Ideal) x1 = ReadP.val_main_v2 (F := Ideal) x1 := rfl
theorem v99_eq : ReadP.val_main_v99 (F := Ideal) x1 = ReadP.val_main_v4 (F := Ideal) x1 := rfl
theorem v35_eq : ReadP.val_main_v35 (F := Ideal) x1 = ReadP.val_main_v20 (F := Ideal) x1 := rfl
theorem v36_eq : ReadP.val_main_v36 (F := Ideal) x1 = ReadP.val_main_v21 (F := Ideal) x1 := rfl
theorem v84_eq : ReadP.val_main_v84 (F := Ideal) x1 = ReadP.val_main_v21 (F := Ideal) x1 := rfl
theorem v90_eq : ReadP.val_main_v90 (F := Ideal) x1 = ReadP.val_main_v42 (F := Ideal) x1 := rfl
theorem v89_eq : ReadP.val_main_v89 (F := Ideal) = ReadP.val_main_v41 (F := Ideal) := rfl
theorem v87_eq : ReadP.val_main_v87 (F := Ideal) x1 = ReadP.val_main_v39 (F := Ideal) x1 := rfl

end

/-! ## Index vectors, normalized entry by entry; the normalizer gathered at them -/

private theorem idx21 (j : Fin 850000) : ReadP.idx_main_v21 (ix2 j (0 : Fin 1)) = ix1 j :=
  funext fun a => by match a with | ⟨0, _⟩ => rfl
private theorem idx28 (j : Fin 850000) : ReadP.idx_main_v28 (ix2 j (0 : Fin 1)) = ix1 j :=
  funext fun a => by match a with | ⟨0, _⟩ => rfl
private theorem idx38 (j : Fin 850000) : ReadP.idx_main_v38 (ix2 j (0 : Fin 1)) = ix1 j :=
  funext fun a => by match a with | ⟨0, _⟩ => rfl
private theorem idx42 (j : Fin 850000) : ReadP.idx_main_v42 (ix2 j (0 : Fin 1)) = ix1 j :=
  funext fun a => by match a with | ⟨0, _⟩ => rfl
private theorem idx39 (j : Fin 850000) (q : Fin 128) : ReadP.idx_main_v39 (ix2 j q) = ix2 j (0 : Fin 1) :=
  funext fun a => by match a with | ⟨0, _⟩ => rfl | ⟨1, _⟩ => rfl

section
variable (x1 : (⟨S2x800000, .i32⟩ : BufTy).Contents (Elt Ideal))

/-- The normalized source word of message `j`. -/
theorem v20_at (j : Fin 850000) : ReadP.val_main_v20 (F := Ideal) x1 (ix1 j) = wrapRow 50000#32 (ReadP.val_main_v6 (F := Ideal) x1 (ix1 j)) := by
  rw [ReadP.val_main_v20_apply, ReadP.val_main_v17_apply, ReadP.val_main_v19_apply, ReadP.val_main_v16_apply,
    ReadP.val_main_v18_apply, ReadP.val_main_c_apply, ReadP.val_main_c_3_apply]
  rfl

/-- The normalized target word of message `j`. -/
theorem v27_at (j : Fin 850000) : ReadP.val_main_v27 (F := Ideal) x1 (ix1 j) = wrapRow 50000#32 (ReadP.val_main_v7 (F := Ideal) x1 (ix1 j)) := by
  rw [ReadP.val_main_v27_apply, ReadP.val_main_v24_apply, ReadP.val_main_v26_apply, ReadP.val_main_v23_apply,
    ReadP.val_main_v25_apply, ReadP.val_main_c_4_apply, ReadP.val_main_c_5_apply]
  rfl

theorem v21_at (j : Fin 850000) : ReadP.val_main_v21 (F := Ideal) x1 (ix2 j (0 : Fin 1)) = wrapRow 50000#32 (ReadP.val_main_v6 (F := Ideal) x1 (ix1 j)) := by
  rw [ReadP.val_main_v21_apply, idx21, v20_at]

theorem v28_at (j : Fin 850000) : ReadP.val_main_v28 (F := Ideal) x1 (ix2 j (0 : Fin 1)) = wrapRow 50000#32 (ReadP.val_main_v7 (F := Ideal) x1 (ix1 j)) := by
  rw [ReadP.val_main_v28_apply, idx28, v27_at]

/-- The normalizer at message `j`'s source row. -/
theorem v22_at (j : Fin 850000) :
    ReadP.val_main_v22 (F := Ideal) x1 (ix1 j) = ReadP.val_main_v15 (F := Ideal) x1 (ix1 (Cert.Gnn.srcRow (N := 50000) hN (ReadP.val_main_v6 (F := Ideal) x1 (ix1 j)))) := by
  unfold ReadP.val_main_v22
  rw [gatherVec_rec, vecGather_apply hN, v21_at]
  rfl

/-- The normalizer at message `j`'s target row. -/
theorem v29_at (j : Fin 850000) :
    ReadP.val_main_v29 (F := Ideal) x1 (ix1 j) = ReadP.val_main_v15 (F := Ideal) x1 (ix1 (Cert.Gnn.srcRow (N := 50000) hN (ReadP.val_main_v7 (F := Ideal) x1 (ix1 j)))) := by
  unfold ReadP.val_main_v29
  rw [gatherVec_rec, vecGather_apply hN, v28_at]
  rfl

/-- The factor of message `j`, spread along the feature axis: the product of the normalizer at its two ends. -/
theorem v39_at (j : Fin 850000) (q : Fin 128) :
    ReadP.val_main_v39 (F := Ideal) x1 (ix2 j q) = ReadP.val_main_v15 (F := Ideal) x1 (ix1 (Cert.Gnn.srcRow (N := 50000) hN (ReadP.val_main_v6 (F := Ideal) x1 (ix1 j))))
      * ReadP.val_main_v15 (F := Ideal) x1 (ix1 (Cert.Gnn.srcRow (N := 50000) hN (ReadP.val_main_v7 (F := Ideal) x1 (ix1 j)))) := by
  rw [ReadP.val_main_v39_apply, idx39, ReadP.val_main_v38_apply, idx38, ReadP.val_main_v30_apply, v22_at, v29_at]
  rfl

theorem v42_at (j : Fin 850000) : ReadP.val_main_v42 (F := Ideal) x1 (ix2 j (0 : Fin 1)) = ReadP.val_main_v7 (F := Ideal) x1 (ix1 j) := by
  rw [ReadP.val_main_v42_apply, idx42]

theorem v41_at (p : Fin 50000) (q : Fin 128) : ReadP.val_main_v41 (F := Ideal) (ix2 p q) = 0 := by
  rw [ReadP.val_main_v41_apply, ReadP.val_main_cst_8_apply]
  exact Ideal.ofBits_zero_f32

/-! ## The aggregate of a feature array -/

/-- THE AGGREGATE OF `h` AT `(p, q)`, as the reference spells it, is the specification's. -/
theorem agg_apply (h : (⟨S50000x128, .f32⟩ : BufTy).Contents (Elt Ideal)) (p : Fin 50000) (q : Fin 128) :
    Host.scatterAdd (F := Ideal) (φ := .f32) scatter_S50000x128_S850000x1_S850000x128_1_0_0_1 (ReadP.val_main_v41 (F := Ideal)) (ReadP.val_main_v42 (F := Ideal) x1)
        (mulf (F := Ideal) (φ := .f32) (Host.gather (α := Ideal .f32) gather_S50000x128_S850000x1_S850000x128_1_0_n_n_0_1_1128 h (ReadP.val_main_v21 (F := Ideal) x1)) (ReadP.val_main_v39 (F := Ideal) x1)) (ix2 p q)
      = Cert.Gnn.aggNormed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (q : Fin 128) => h (ix2 p q)) p q := by
  rw [scatterRowsM_rec, gatherRowsM_rec]
  exact layer_apply (N := 50000) (M := 850000) (D := 128) hN
    gather_S50000x128_S850000x1_S850000x128_1_0_n_n_0_1_1128_wf scatter_S50000x128_S850000x1_S850000x128_1_0_0_1_wf
    h (ReadP.val_main_v41 (F := Ideal)) (ReadP.val_main_v21 (F := Ideal) x1) (ReadP.val_main_v42 (F := Ideal) x1) (ReadP.val_main_v39 (F := Ideal) x1)
    (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p))
    (fun p q => v41_at p q) (fun j => v21_at x1 j) (fun j => v42_at x1 j) (fun j q => v39_at x1 j q) p q

end

/-! ## The two layers -/

private theorem lidx0 (p : Fin 50000) (q k : Fin 128) : ReadP.lidx_main_v0 (ix2 p q) k = ix2 p k :=
  funext fun a => by match a with | ⟨0, _⟩ => rfl | ⟨1, _⟩ => rfl
private theorem ridx0 (p : Fin 50000) (q k : Fin 128) : ReadP.ridx_main_v0 (ix2 p q) k = ix2 k q :=
  funext fun a => by match a with | ⟨0, _⟩ => rfl | ⟨1, _⟩ => rfl
private theorem lidx48 (p : Fin 50000) (q k : Fin 128) : ReadP.lidx_main_v48 (ix2 p q) k = ix2 p k :=
  funext fun a => by match a with | ⟨0, _⟩ => rfl | ⟨1, _⟩ => rfl
private theorem ridx48 (p : Fin 50000) (q k : Fin 128) : ReadP.ridx_main_v48 (ix2 p q) k = ix2 k q :=
  funext fun a => by match a with | ⟨0, _⟩ => rfl | ⟨1, _⟩ => rfl
private theorem idx45 (p : Fin 50000) (k : Fin 128) : ReadP.idx_main_v45 (ix2 p k) = ix2 (0 : Fin 1) k :=
  funext fun a => by match a with | ⟨0, _⟩ => rfl | ⟨1, _⟩ => rfl
private theorem idx44 (k : Fin 128) : ReadP.idx_main_v44 (ix2 (0 : Fin 1) k) = ix1 k :=
  funext fun a => by match a with | ⟨0, _⟩ => rfl
private theorem idx93 (p : Fin 50000) (k : Fin 128) : ReadP.idx_main_v93 (ix2 p k) = ix2 (0 : Fin 1) k :=
  funext fun a => by match a with | ⟨0, _⟩ => rfl | ⟨1, _⟩ => rfl
private theorem idx92 (k : Fin 128) : ReadP.idx_main_v92 (ix2 (0 : Fin 1) k) = ix1 k :=
  funext fun a => by match a with | ⟨0, _⟩ => rfl

section
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))

/-- The first layer's aggregate: of the features times the first weight matrix. -/
theorem v43_at (p : Fin 50000) (q : Fin 128) :
    ReadP.val_main_v43 (F := Ideal) x0 x1 x2 (ix2 p q) = Cert.Gnn.aggNormed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (q : Fin 128) => ReadP.val_main_v0 (F := Ideal) x0 x2 (ix2 p q)) p q := by
  unfold ReadP.val_main_v43 ReadP.val_main_v40 ReadP.val_main_v37
  rw [v36_eq]
  exact agg_apply x1 (ReadP.val_main_v0 (F := Ideal) x0 x2) p q

/-- The features times the first weight matrix, entry by entry. -/
theorem v0_fun : (fun (p : Fin 50000) (q : Fin 128) => ReadP.val_main_v0 (F := Ideal) x0 x2 (ix2 p q)) = (Cert.Gnn.dense (fun (p : Fin 50000) (k : Fin 128) => x0 (ix2 p k)) (fun (k : Fin 128) (q : Fin 128) => x2 (ix2 k q))) := by
  funext p q
  rw [ReadP.val_main_v0_apply]
  unfold Cert.Gnn.dense
  refine Finset.sum_congr rfl fun k _ => ?_
  rw [lidx0, ridx0]

/-- The hidden features: bias, then the rectifier. -/
theorem v47_at (p : Fin 50000) (k : Fin 128) :
    ReadP.val_main_v47 (F := Ideal) x0 x1 x2 x3 (ix2 p k) = max (Cert.Gnn.aggNormed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (Cert.Gnn.dense (fun (p : Fin 50000) (k : Fin 128) => x0 (ix2 p k)) (fun (k : Fin 128) (q : Fin 128) => x2 (ix2 k q))) p k + x3 (ix1 k)) 0 := by
  rw [ReadP.val_main_v47_apply, ReadP.val_main_v46_apply, v43_at, v0_fun, ReadP.val_main_v45_apply, idx45,
    ReadP.val_main_v44_apply, idx44, ReadP.val_main_call1_v0_apply, ReadP.val_main_call1_cst_apply]
  show max (_ + _) (Ideal.ofBits .f32 0x00000000#32) = _
  rw [Ideal.ofBits_zero_f32]

/-- The hidden features times the second weight matrix, entry by entry. -/
theorem v48_fun : (fun (p : Fin 50000) (q : Fin 128) => ReadP.val_main_v48 (F := Ideal) x0 x1 x2 x3 x4 (ix2 p q))
    = Cert.Gnn.dense (fun (p : Fin 50000) (k : Fin 128) => max (Cert.Gnn.aggNormed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (Cert.Gnn.dense (fun (p : Fin 50000) (k : Fin 128) => x0 (ix2 p k)) (fun (k : Fin 128) (q : Fin 128) => x2 (ix2 k q))) p k + x3 (ix1 k)) 0) (fun (k : Fin 128) (q : Fin 128) => x4 (ix2 k q)) := by
  funext p q
  rw [ReadP.val_main_v48_apply]
  unfold Cert.Gnn.dense
  refine Finset.sum_congr rfl fun k _ => ?_
  rw [lidx48, ridx48, v47_at]
  rfl

/-- THE SECOND LAYER'S AGGREGATE is the specification's. -/
theorem v91_at (p : Fin 50000) (q : Fin 128) :
    ReadP.val_main_v91 (F := Ideal) x0 x1 x2 x3 x4 (ix2 p q) = (Cert.Gnn.agg2Normed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (k : Fin 128) => x0 (ix2 p k)) (fun (k : Fin 128) (q : Fin 128) => x2 (ix2 k q)) (fun k : Fin 128 => x3 (ix1 k)) (fun (k : Fin 128) (q : Fin 128) => x4 (ix2 k q))) p q := by
  unfold ReadP.val_main_v91 ReadP.val_main_v88 ReadP.val_main_v85
  rw [v89_eq, v90_eq, v84_eq, v87_eq]
  refine (agg_apply x1 (ReadP.val_main_v48 (F := Ideal) x0 x1 x2 x3 x4) p q).trans ?_
  rw [v48_fun]
  rfl

/-- The node embeddings: bias, then the rectifier. -/
theorem v95_at (p : Fin 50000) (k : Fin 128) :
    ReadP.val_main_v95 (F := Ideal) x0 x1 x2 x3 x4 x5 (ix2 p k) = max ((Cert.Gnn.agg2Normed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (k : Fin 128) => x0 (ix2 p k)) (fun (k : Fin 128) (q : Fin 128) => x2 (ix2 k q)) (fun k : Fin 128 => x3 (ix1 k)) (fun (k : Fin 128) (q : Fin 128) => x4 (ix2 k q))) p k + x5 (ix1 k)) 0 := by
  rw [ReadP.val_main_v95_apply, ReadP.val_main_v94_apply, v91_at, ReadP.val_main_v93_apply, idx93,
    ReadP.val_main_v92_apply, idx92, ReadP.val_main_call3_v0_apply, ReadP.val_main_call3_cst_apply]
  show max (_ + _) (Ideal.ofBits .f32 0x00000000#32) = _
  rw [Ideal.ofBits_zero_f32]

end

/-! ## The edge stage -/

theorem h256 : 128 + 128 = 256 := rfl

private theorem idx105 (e : Fin 800000) : ReadP.idx_main_v105 (ix2 e (0 : Fin 1)) = ix1 e :=
  funext fun a => by match a with | ⟨0, _⟩ => rfl
private theorem idx112 (e : Fin 800000) : ReadP.idx_main_v112 (ix2 e (0 : Fin 1)) = ix1 e :=
  funext fun a => by match a with | ⟨0, _⟩ => rfl
private theorem lidx115 (e : Fin 800000) (q : Fin 128) (k : Fin 256) : ReadP.lidx_main_v115 (ix2 e q) k = ix2 e k :=
  funext fun a => by match a with | ⟨0, _⟩ => rfl | ⟨1, _⟩ => rfl
private theorem ridx115 (e : Fin 800000) (q : Fin 128) (k : Fin 256) : ReadP.ridx_main_v115 (ix2 e q) k = ix2 k q :=
  funext fun a => by match a with | ⟨0, _⟩ => rfl | ⟨1, _⟩ => rfl
private theorem idx117 (e : Fin 800000) (q : Fin 128) : ReadP.idx_main_v117 (ix2 e q) = ix2 (0 : Fin 1) q :=
  funext fun a => by match a with | ⟨0, _⟩ => rfl | ⟨1, _⟩ => rfl
private theorem idx116 (q : Fin 128) : ReadP.idx_main_v116 (ix2 (0 : Fin 1) q) = ix1 q :=
  funext fun a => by match a with | ⟨0, _⟩ => rfl
private theorem lidx120 (e : Fin 800000) (k : Fin 128) : ReadP.lidx_main_v120 (ix2 e (0 : Fin 1)) k = ix2 e k :=
  funext fun a => by match a with | ⟨0, _⟩ => rfl | ⟨1, _⟩ => rfl
private theorem ridx120 (e : Fin 800000) (k : Fin 128) : ReadP.ridx_main_v120 (ix2 e (0 : Fin 1)) k = ix2 k (0 : Fin 1) :=
  funext fun a => by match a with | ⟨0, _⟩ => rfl | ⟨1, _⟩ => rfl
private theorem idx122 (e : Fin 800000) : ReadP.idx_main_v122 (ix2 e (0 : Fin 1)) = ix2 (0 : Fin 1) (0 : Fin 1) :=
  funext fun a => by match a with | ⟨0, _⟩ => rfl | ⟨1, _⟩ => rfl
private theorem idx121  : ReadP.idx_main_v121 (ix2 (0 : Fin 1) (0 : Fin 1)) = ix1 (0 : Fin 1) :=
  funext fun a => by match a with | ⟨0, _⟩ => rfl
private theorem idx130 (e : Fin 800000) : ReadP.idx_main_v130 (ix1 e) = ix2 e (0 : Fin 1) :=
  funext fun a => by
    match a with
    | ⟨0, _⟩ => exact Fin.ext (Nat.div_one _)
    | ⟨1, _⟩ => rfl

/-- A sum over 256 positions is the sum over the first 128 plus the sum over the last 128. -/
theorem sum_256 (f : Fin 256 → EReal) :
    ∑ k : Fin 256, f k = ∑ k : Fin 128, f (Fin.cast h256 (Fin.castAdd 128 k)) + ∑ k : Fin 128, f (Fin.cast h256 (Fin.natAdd 128 k)) := by
  rw [← Fin.sum_congr' f h256, Fin.sum_univ_add]

section
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal))

/-- The normalized source word of edge `e`, as a column entry. -/
theorem v105_at (e : Fin 800000) : ReadP.val_main_v105 (F := Ideal) x1 (ix2 e (0 : Fin 1)) = wrapRow 50000#32 (ReadP.val_main_v2 (F := Ideal) x1 (ix1 e)) := by
  rw [ReadP.val_main_v105_apply, idx105, ReadP.val_main_v104_apply, ReadP.val_main_v101_apply, ReadP.val_main_v103_apply,
    ReadP.val_main_v100_apply, ReadP.val_main_v102_apply, ReadP.val_main_c_20_apply, ReadP.val_main_c_21_apply, v97_eq]
  rfl

/-- The normalized target word of edge `e`, as a column entry. -/
theorem v112_at (e : Fin 800000) : ReadP.val_main_v112 (F := Ideal) x1 (ix2 e (0 : Fin 1)) = wrapRow 50000#32 (ReadP.val_main_v4 (F := Ideal) x1 (ix1 e)) := by
  rw [ReadP.val_main_v112_apply, idx112, ReadP.val_main_v111_apply, ReadP.val_main_v108_apply, ReadP.val_main_v110_apply,
    ReadP.val_main_v107_apply, ReadP.val_main_v109_apply, ReadP.val_main_c_22_apply, ReadP.val_main_c_23_apply, v99_eq]
  rfl

/-- The embedding of edge `e`'s source node. -/
theorem v106_at (e : Fin 800000) (k : Fin 128) :
    ReadP.val_main_v106 (F := Ideal) x0 x1 x2 x3 x4 x5 (ix2 e k)
      = max ((Cert.Gnn.agg2Normed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (k : Fin 128) => x0 (ix2 p k)) (fun (k : Fin 128) (q : Fin 128) => x2 (ix2 k q)) (fun k : Fin 128 => x3 (ix1 k)) (fun (k : Fin 128) (q : Fin 128) => x4 (ix2 k q))) (Cert.Gnn.srcRow (N := 50000) hN (ReadP.val_main_v2 (F := Ideal) x1 (ix1 e))) k + x5 (ix1 k)) 0 := by
  unfold ReadP.val_main_v106
  rw [gatherRowsE_rec, rowGather_apply hN, v105_at]
  exact v95_at x0 x1 x2 x3 x4 x5 _ k

/-- The embedding of edge `e`'s target node. -/
theorem v113_at (e : Fin 800000) (k : Fin 128) :
    ReadP.val_main_v113 (F := Ideal) x0 x1 x2 x3 x4 x5 (ix2 e k)
      = max ((Cert.Gnn.agg2Normed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (k : Fin 128) => x0 (ix2 p k)) (fun (k : Fin 128) (q : Fin 128) => x2 (ix2 k q)) (fun k : Fin 128 => x3 (ix1 k)) (fun (k : Fin 128) (q : Fin 128) => x4 (ix2 k q))) (Cert.Gnn.srcRow (N := 50000) hN (ReadP.val_main_v4 (F := Ideal) x1 (ix1 e))) k + x5 (ix1 k)) 0 := by
  unfold ReadP.val_main_v113
  rw [gatherRowsE_rec, rowGather_apply hN, v112_at]
  exact v95_at x0 x1 x2 x3 x4 x5 _ k

/-- The first half of the concatenated row is the source embedding. -/
theorem v114_left (e : Fin 800000) (k : Fin 128) :
    ReadP.val_main_v114 (F := Ideal) x0 x1 x2 x3 x4 x5 (ix2 e (Fin.cast h256 (Fin.castAdd 128 k))) = ReadP.val_main_v106 (F := Ideal) x0 x1 x2 x3 x4 x5 (ix2 e k) := by
  unfold ReadP.val_main_v114
  exact concatenate_pair_apply_left (t := S800000x256) (s₁ := S800000x128) (s₂ := S800000x128) (1 : Fin 2) _ _
    concatenates_S800000x128_S800000x128_S800000x256_d1 (ix2 e (Fin.cast h256 (Fin.castAdd 128 k))) rfl (ix2 e k)
    (fun b => by match b with | ⟨0, _⟩ => rfl | ⟨1, _⟩ => rfl)

/-- The second half of the concatenated row is the target embedding. -/
theorem v114_right (e : Fin 800000) (k : Fin 128) :
    ReadP.val_main_v114 (F := Ideal) x0 x1 x2 x3 x4 x5 (ix2 e (Fin.cast h256 (Fin.natAdd 128 k))) = ReadP.val_main_v113 (F := Ideal) x0 x1 x2 x3 x4 x5 (ix2 e k) := by
  unfold ReadP.val_main_v114
  exact concatenate_pair_apply_right (t := S800000x256) (s₁ := S800000x128) (s₂ := S800000x128) (1 : Fin 2) _ _
    concatenates_S800000x128_S800000x128_S800000x256_d1 (ix2 e (Fin.cast h256 (Fin.natAdd 128 k))) rfl rfl (ix2 e k)
    (fun b hb => by
      match b with
      | ⟨0, _⟩ => rfl
      | ⟨1, _⟩ => exact absurd rfl hb)
    (by show k.val + 128 = 128 + k.val; omega)

/-- THE EDGE SCORES BEFORE THE BIAS: the concatenated embeddings contracted with the whole first classifier matrix. -/
theorem v115_at (e : Fin 800000) (q : Fin 128) :
    ReadP.val_main_v115 (F := Ideal) x0 x1 x2 x3 x4 x5 x6 (ix2 e q) = (Cert.Gnn.scoreConcat (N := 50000) (E := 800000) (D := 128) hN (fun e : Fin 800000 => ReadP.val_main_v2 (F := Ideal) x1 (ix1 e)) (fun e : Fin 800000 => ReadP.val_main_v4 (F := Ideal) x1 (ix1 e)) (fun k : Fin 128 => x5 (ix1 k)) (fun (k : Fin (128 + 128)) (q : Fin 128) => x6 (ix2 (Fin.cast h256 k) q)) (Cert.Gnn.agg2Normed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (k : Fin 128) => x0 (ix2 p k)) (fun (k : Fin 128) (q : Fin 128) => x2 (ix2 k q)) (fun k : Fin 128 => x3 (ix1 k)) (fun (k : Fin 128) (q : Fin 128) => x4 (ix2 k q)))) e q := by
  rw [ReadP.val_main_v115_apply, sum_256]
  unfold Cert.Gnn.scoreConcat
  rw [Fin.sum_univ_add]
  refine congrArg₂ (· + ·) (Finset.sum_congr rfl fun k _ => ?_) (Finset.sum_congr rfl fun k _ => ?_)
  · rw [Fin.append_left, lidx115, ridx115, v114_left, v106_at]
  · rw [Fin.append_right, lidx115, ridx115, v114_right, v113_at]

/-- The hidden edge features: bias, then the rectifier. -/
theorem v119_at (e : Fin 800000) (q : Fin 128) :
    ReadP.val_main_v119 (F := Ideal) x0 x1 x2 x3 x4 x5 x6 x7 (ix2 e q) = max ((Cert.Gnn.scoreConcat (N := 50000) (E := 800000) (D := 128) hN (fun e : Fin 800000 => ReadP.val_main_v2 (F := Ideal) x1 (ix1 e)) (fun e : Fin 800000 => ReadP.val_main_v4 (F := Ideal) x1 (ix1 e)) (fun k : Fin 128 => x5 (ix1 k)) (fun (k : Fin (128 + 128)) (q : Fin 128) => x6 (ix2 (Fin.cast h256 k) q)) (Cert.Gnn.agg2Normed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (k : Fin 128) => x0 (ix2 p k)) (fun (k : Fin 128) (q : Fin 128) => x2 (ix2 k q)) (fun k : Fin 128 => x3 (ix1 k)) (fun (k : Fin 128) (q : Fin 128) => x4 (ix2 k q)))) e q + x7 (ix1 q)) 0 := by
  rw [ReadP.val_main_v119_apply, ReadP.val_main_v118_apply, v115_at, ReadP.val_main_v117_apply, idx117,
    ReadP.val_main_v116_apply, idx116, ReadP.val_main_call4_v0_apply, ReadP.val_main_call4_cst_apply]
  show max (_ + _) (Ideal.ofBits .f32 0x00000000#32) = _
  rw [Ideal.ofBits_zero_f32]

/-- The logit of edge `e`. -/
theorem v123_at (e : Fin 800000) :
    ReadP.val_main_v123 (F := Ideal) x0 x1 x2 x3 x4 x5 x6 x7 x8 x9 (ix2 e (0 : Fin 1))
      = (∑ k : Fin 128, max ((Cert.Gnn.scoreConcat (N := 50000) (E := 800000) (D := 128) hN (fun e : Fin 800000 => ReadP.val_main_v2 (F := Ideal) x1 (ix1 e)) (fun e : Fin 800000 => ReadP.val_main_v4 (F := Ideal) x1 (ix1 e)) (fun k : Fin 128 => x5 (ix1 k)) (fun (k : Fin (128 + 128)) (q : Fin 128) => x6 (ix2 (Fin.cast h256 k) q)) (Cert.Gnn.agg2Normed (N := 50000) (M := 850000) (D := 128) hN (fun j : Fin 850000 => ReadP.val_main_v6 (F := Ideal) x1 (ix1 j)) (fun j : Fin 850000 => ReadP.val_main_v7 (F := Ideal) x1 (ix1 j)) (fun p : Fin 50000 => ReadP.val_main_v15 (F := Ideal) x1 (ix1 p)) (fun (p : Fin 50000) (k : Fin 128) => x0 (ix2 p k)) (fun (k : Fin 128) (q : Fin 128) => x2 (ix2 k q)) (fun k : Fin 128 => x3 (ix1 k)) (fun (k : Fin 128) (q : Fin 128) => x4 (ix2 k q)))) e k + x7 (ix1 k)) 0 * x8 (ix2 k (0 : Fin 1))) + x9 (ix1 (0 : Fin 1)) := by
  rw [ReadP.val_main_v123_apply, ReadP.val_main_v120_apply, ReadP.val_main_v122_apply, idx122, ReadP.val_main_v121_apply, idx121]
  refine congrArg (· + x9 (ix1 (0 : Fin 1))) (Finset.sum_congr rfl fun k _ => ?_)
  rw [lidx120, ridx120, v119_at]

end

/-! ## The reference's result at an edge, and its normalizer -/

section
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal))

/-- THE REFERENCE IS THE SPECIFICATION: its result at edge `e` is `refOut` of the argument arrays at `e`, with the
    messages' source and target words, the edges' end words and the normalizer read off the reference's own stages. -/
theorem ref_entry (e : Fin 800000) :
    ReadP.val_main_v130 (F := Ideal) x0 x1 x2 x3 x4 x5 x6 x7 x8 x9 (ix1 e)
      = Cert.Gnn.refOut (N := 50000) (M := 850000) (E := 800000) (D := 128) hN
        (fun j : Fin 850000 => ReadP.val_main_v6 (F := Ideal) x1 (ix1 j)) (fun j : Fin 850000 => ReadP.val_main_v7 (F := Ideal) x1 (ix1 j))
        (fun e : Fin 800000 => ReadP.val_main_v2 (F := Ideal) x1 (ix1 e)) (fun e : Fin 800000 => ReadP.val_main_v4 (F := Ideal) x1 (ix1 e))
        (fun p : Fin 50000 => ReadP.val_main_v15 (F := Ideal) x1 (ix1 p))
        (fun (p : Fin 50000) (k : Fin 128) => x0 (ix2 p k)) (fun (k : Fin 128) (q : Fin 128) => x2 (ix2 k q)) (fun k : Fin 128 => x3 (ix1 k)) (fun (k : Fin 128) (q : Fin 128) => x4 (ix2 k q)) (fun k : Fin 128 => x5 (ix1 k))
        (fun (k : Fin (128 + 128)) (q : Fin 128) => x6 (ix2 (Fin.cast (by norm_num) k) q)) (fun k : Fin 128 => x7 (ix1 k)) (fun k : Fin 128 => x8 (ix2 k (0 : Fin 1))) (x9 (ix1 (0 : Fin 1))) e := by
  rw [ReadP.val_main_v130_apply, idx130, ReadP.val_main_v129_apply, ReadP.val_main_v128_apply, ReadP.val_main_cst_25_apply,
    ReadP.val_main_v127_apply, ReadP.val_main_v126_apply, ReadP.val_main_cst_24_apply, ReadP.val_main_v125_apply,
    ReadP.val_main_v124_apply, v123_at]
  rw [Ideal.hostDivf_def, Ideal.addf_def, Ideal.hostUnary_exp_def, Ideal.hostNegf_def, Ideal.negf_def, Ideal.ofBits_def,
    Ideal.ofBits_one_f32]
  rfl

/-- THE NORMALIZER IS A REAL NUMBER THAT IS NOT NEGATIVE, at every node, whatever the degrees are. -/
theorem ref_dinv_real (p : Fin 50000) : ∃ r : ℝ, 0 ≤ r ∧ ReadP.val_main_v15 (F := Ideal) x1 (ix1 p) = (r : EReal) := by
  unfold ReadP.val_main_v15 ReadP.val_main_v13 ReadP.val_main_v14
  refine exists_real_guarded_rsqrt (ReadP.val_main_v11 (F := Ideal) x1) (ReadP.val_main_v12 (F := Ideal)) (ReadP.val_main_call0_v1 (F := Ideal)) (fun i => ?_) (fun i => ?_) (ix1 p)
  · rw [ReadP.val_main_v12_apply, ReadP.val_main_cst_1_apply]
    exact Ideal.ofBits_zero_f32
  · rw [ReadP.val_main_call0_v1_apply, ReadP.val_main_call0_v0_apply, ReadP.val_main_cst_2_apply]
    exact Ideal.ofBits_zero_f32

end

end Cert.ReferenceIdeal.RefValue

end
-- ==== Proof.Bridge.lean ====
/-
  THE TWO RESULTS ARE ONE ARRAY.

  Edge by edge the kernel's result is the specification's `kernelOut` and the reference's is `refOut`, both over the
  same index words (rows 0 and 1 of the edge array, with one self-loop per node appended for the messages), the same
  normalizer `where(deg > 0, rsqrt(deg), 0)` — the two programs spell these by the same operations, so they are the same
  functions of the edge array — and the same weights. The normalizer's entries are reals ≥ 0, so the specification's
  bridge theorem applies: the results agree whatever extended reals the float arguments hold.
-/
import proofs.«120741_j12326556139999_2_alg».proof.Proof.KernelValue
import proofs.«120741_j12326556139999_2_alg».proof.Proof.RefValue

noncomputable section

namespace Cert.Proof.Bridge

open Idealize.ShloMosaic Idealize.ShloMosaic.TcCoe Idealize.SL.Sem Idealize.ShloMosaic.ValueIdx
open Cert.KernelIdeal.HostChain Cert.ReferenceIdeal.RefValue Cert.Gnn

/-! ## The index words and the normalizer: one spelling in both programs -/

theorem rowE_eq (x1 : IVec Cert.KernelIdeal.S2x800000 32) : rowE x1 = Cert.ReferenceIdeal.ReadP.val_main_v2 (F := Ideal) x1 := rfl
theorem colE_eq (x1 : IVec Cert.KernelIdeal.S2x800000 32) : colE x1 = Cert.ReferenceIdeal.ReadP.val_main_v4 (F := Ideal) x1 := rfl
theorem rowF_eq (x1 : IVec Cert.KernelIdeal.S2x800000 32) : rowF x1 = Cert.ReferenceIdeal.ReadP.val_main_v6 (F := Ideal) x1 := rfl
theorem colF_eq (x1 : IVec Cert.KernelIdeal.S2x800000 32) : colF x1 = Cert.ReferenceIdeal.ReadP.val_main_v7 (F := Ideal) x1 := rfl
theorem dinv_eq (x1 : IVec Cert.KernelIdeal.S2x800000 32) : dinv x1 = Cert.ReferenceIdeal.ReadP.val_main_v15 (F := Ideal) x1 := rfl

/-! ## Edge by edge -/

/-- The reference's result at edge `e` is the kernel's specification at `e`. -/
theorem entry_eq (x0 : FVec Ideal Cert.KernelIdeal.S50000x128 .f32) (x1 : IVec Cert.KernelIdeal.S2x800000 32) (x2 : FVec Ideal Cert.KernelIdeal.S128x128 .f32)
    (x3 : FVec Ideal Cert.KernelIdeal.S128 .f32) (x4 : FVec Ideal Cert.KernelIdeal.S128x128 .f32) (x5 : FVec Ideal Cert.KernelIdeal.S128 .f32)
    (x6 : FVec Ideal Cert.KernelIdeal.S256x128 .f32) (x7 : FVec Ideal Cert.KernelIdeal.S128 .f32) (x8 : FVec Ideal Cert.KernelIdeal.S128x1 .f32)
    (x9 : FVec Ideal Cert.KernelIdeal.S1 .f32) (e : Fin 800000) :
    Cert.ReferenceIdeal.ReadP.val_main_v130 (F := Ideal) x0 x1 x2 x3 x4 x5 x6 x7 x8 x9 (ix1 e)
      = kernelOut Cert.KernelIdeal.HostChain.hN (sRowF x1) (sColF x1) (sRowE x1) (sColE x1) (sD x1) (sX x0) (sW1 x2) (sB1 x3) (sW2 x4) (sB2 x5)
          (sWe1 x6) (sBe1 x7) (sWe2 x8) (x9 (ix1 (0 : Fin 1))) e := by
  rw [ref_entry, kernelOut_eq_refOut _ _ _ _ _ _ _ _ _ _ _ _ _ _ _ (by decide) (fun p => dinv_real x1 p)]
  first
    | rfl
    | (simp only [← rowE_eq, ← colE_eq, ← rowF_eq, ← colF_eq, ← dinv_eq]; rfl)

/-- The reference's result array is the kernel's, from memories that agree on the arguments. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v130 (F := Ideal) m' c
      = Cert.KernelIdeal.Gen.W11 (F := Ideal) m ρ c (Proc.devRef .tc Cert.KernelIdeal.main_v70) := by
  rw [Cert.ReferenceIdeal.ReadP.val_main_v130_eq m' c, h0, h1, h2, h3, h4, h5, h6, h7, h8, h9]
  funext i
  rw [eq_ix1 i]
  exact (entry_eq _ _ _ _ _ _ _ _ _ _ (i 0)).trans
    (kernel_entry m ρ c _ _ _ _ _ _ _ _ _ _ rfl rfl rfl rfl rfl rfl rfl rfl rfl rfl (i 0)).symm

end Cert.Proof.Bridge

end
-- ==== Proof.lean ====
/-
  A graph network of two convolution layers and an edge classifier, computed by four tiled kernels with host
  operations between them, against a plain array program: the two end with equal results as extended reals.

  Under the precondition all three programs run to the end with their arguments unchanged: the two kernel programs by
  the launch of their eleven segments, the reference by its run read back. The idealized kernel is the kernel's own
  text read at the exact values (no operation was rewritten), so there is nothing to preserve beyond that. For the
  equality of results, the kernel's run is read at its result buffer (KernelRun), that buffer's contents are followed
  through the segments to the specification's `kernelOut` edge by edge (Tiles, KernelHostOps, KernelKeep,
  KernelHostRead, KernelValue), the reference's result is the specification's `refOut` (RefRun, RefRead, RefLayer,
  RefValue), and the two specifications agree because the symmetric normalizer's entries are real numbers that are not
  negative, which lets a factor move across a finite sum of extended reals (GnnSpec, Bridge). The precondition that
  every float argument is finite is not needed for that: the equality holds at infinite entries too.
-/
import proofs.«120741_j12326556139999_2_alg».proof.Defs
import proofs.«120741_j12326556139999_2_alg».proof.Proof.Gen.Kernel
import proofs.«120741_j12326556139999_2_alg».proof.Proof.Gen.Kernel.Frame
import proofs.«120741_j12326556139999_2_alg».proof.Proof.Gen.KernelIdeal
import proofs.«120741_j12326556139999_2_alg».proof.Proof.Gen.KernelIdeal.Frame
import proofs.«120741_j12326556139999_2_alg».proof.Proof.Gen.ReferenceIdeal
import proofs.«120741_j12326556139999_2_alg».proof.Proof.Gen.Pre_finite_inputs
import proofs.«120741_j12326556139999_2_alg».proof.Proof.KernelRun
import proofs.«120741_j12326556139999_2_alg».proof.Proof.Bridge
import Idealize.ShloMosaic.Adequacy
import Idealize.ShloMosaic.Init

noncomputable section

namespace Cert.Proof

open Idealize.ShloMosaic Idealize.SL.Sem

/-- The kernel as printed runs to the end with its arguments unchanged: the launch of its segments. -/
theorem frame_k : @Cert.frame_Kernel Cert.Kernel.Gen.facts Cert.Pre_finite_inputs.Gen.facts :=
  fun m ρ _ => Cert.Kernel.Gen.frame m ρ

/-- So does the kernel read at the exact values. -/
theorem frame_ki : @Cert.frame_KernelIdeal Cert.KernelIdeal.Gen.facts Cert.Pre_finite_inputs.Gen.facts :=
  fun m ρ _ => Cert.KernelIdeal.Gen.frame m ρ

/-- The reference's run, its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both idealized programs run, and end with the same result array: the kernel's, named by its run, which the
    reference's result equals edge by edge. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W11 (F := Ideal) m ρ c (Proc.devRef .tc Cert.KernelIdeal.main_v70),
    Cert.KernelIdeal.RunValue.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  exact Cert.Proof.Bridge.result_eq m ρ m' c h0 h1 h2 h3 h4 h5 h6 h7 h8 h9

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
